-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S8x128 : Shape := ⟨2, ![8, 128]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x113 : Shape := ⟨2, ![1, 113]⟩
abbrev S1x128 : Shape := ⟨2, ![1, 128]⟩
abbrev S1x15 : Shape := ⟨2, ![1, 15]⟩
abbrev S15 : Shape := ⟨1, ![15]⟩
abbrev S_ : Shape := ⟨0, ![]⟩

abbrev nBuf : Space → Nat
  | .hbm => 32
  | .vmem => 5
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S8x128, .f32⟩
  | .hbm, ⟨5, _⟩ => ⟨S1x15, .f32⟩
  | .hbm, ⟨6, _⟩ => ⟨S15, .f32⟩
  | .hbm, ⟨7, _⟩ => ⟨S1x15, .f32⟩
  | .hbm, ⟨8, _⟩ => ⟨S15, .f32⟩
  | .hbm, ⟨9, _⟩ => ⟨S1x15, .f32⟩
  | .hbm, ⟨10, _⟩ => ⟨S15, .f32⟩
  | .hbm, ⟨11, _⟩ => ⟨S_, .f32⟩
  | .hbm, ⟨12, _⟩ => ⟨S15, .f32⟩
  | .hbm, ⟨13, _⟩ => ⟨S15, .f32⟩
  | .hbm, ⟨14, _⟩ => ⟨S15, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S_, .f32⟩
  | .hbm, ⟨19, _⟩ => ⟨S15, .f32⟩
  | .hbm, ⟨20, _⟩ => ⟨S15, .f32⟩
  | .hbm, ⟨21, _⟩ => ⟨S_, .f32⟩
  | .hbm, ⟨22, _⟩ => ⟨S15, .f32⟩
  | .hbm, ⟨23, _⟩ => ⟨S15, .i1⟩
  | .hbm, ⟨24, _⟩ => ⟨S15, .f32⟩
  | .hbm, ⟨25, _⟩ => ⟨S_, .f32⟩
  | .hbm, ⟨26, _⟩ => ⟨S_, .f32⟩
  | .hbm, ⟨27, _⟩ => ⟨S15, .f32⟩
  | .hbm, ⟨28, _⟩ => ⟨S15, .f32⟩
  | .hbm, ⟨29, _⟩ => ⟨S_, .f32⟩
  | .hbm, ⟨30, _⟩ => ⟨S_, .f32⟩
  | .hbm, ⟨31, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  concatenates_S1x1_S1x1_S1x1_S1x1_S1x1_S1x1_S1x1_S1x1_S1x1_S1x1_S1x1_S1x1_S1x1_S1x1_S1x1_S1x113_S1x128_d1 : Shape.Concatenates [S1x1, S1x1, S1x1, S1x1, S1x1, S1x1, S1x1, S1x1, S1x1, S1x1, S1x1, S1x1, S1x1, S1x1, S1x1, S1x113] S1x128 1
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  slices_S8x128_S1x15_0_0 : S8x128.Slices ![0, 0] S1x15
  shapeCasts_S1x15_S15 : S1x15.ShapeCasts S15
  slices_S8x128_S1x15_1_0 : S8x128.Slices ![1, 0] S1x15
  slices_S8x128_S1x15_2_0 : S8x128.Slices ![2, 0] S1x15
  bcast_S_S15 : S_.BroadcastsInDim S15 (![] : Fin 0 → Fin S15.rank)
  reducesTo_S15_S_d0 : S15.ReducesTo [0] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩
abbrev S16 : Shape := ⟨1, ![16]⟩
abbrev S33554432x1 : Shape := ⟨2, ![33554432, 1]⟩
abbrev S15 : Shape := ⟨1, ![15]⟩
abbrev S1 : Shape := ⟨1, ![1]⟩

abbrev nBuf : Space → Nat
  | .hbm => 70
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .i1⟩
  | .hbm, ⟨6, _⟩ => ⟨S33554432, .f32⟩
  | .hbm, ⟨7, _⟩ => ⟨S33554432, .i1⟩
  | .hbm, ⟨8, _⟩ => ⟨S33554432, .f32⟩
  | .hbm, ⟨9, _⟩ => ⟨S_, .f32⟩
  | .hbm, ⟨10, _⟩ => ⟨S33554432, .f32⟩
  | .hbm, ⟨11, _⟩ => ⟨S33554432, .f32⟩
  | .hbm, ⟨12, _⟩ => ⟨S33554432, .f32⟩
  | .hbm, ⟨13, _⟩ => ⟨S33554432, .i32⟩
  | .hbm, ⟨14, _⟩ => ⟨S_, .i32⟩
  | .hbm, ⟨15, _⟩ => ⟨S33554432, .i32⟩
  | .hbm, ⟨16, _⟩ => ⟨S33554432, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S33554432, .i32⟩
  | .hbm, ⟨21, _⟩ => ⟨S33554432, .i32⟩
  | .hbm, ⟨22, _⟩ => ⟨S_, .i32⟩
  | .hbm, ⟨23, _⟩ => ⟨S33554432, .i32⟩
  | .hbm, ⟨24, _⟩ => ⟨S33554432, .i32⟩
  | .hbm, ⟨25, _⟩ => ⟨S_, .f32⟩
  | .hbm, ⟨26, _⟩ => ⟨S33554432, .f32⟩
  | .hbm, ⟨27, _⟩ => ⟨S33554432, .i1⟩
  | .hbm, ⟨28, _⟩ => ⟨S_, .i32⟩
  | .hbm, ⟨29, _⟩ => ⟨S_, .i32⟩
  | .hbm, ⟨30, _⟩ => ⟨S33554432, .i32⟩
  | .hbm, ⟨31, _⟩ => ⟨S33554432, .i32⟩
  | .hbm, ⟨32, _⟩ => ⟨S_, .f32⟩
  | .hbm, ⟨33, _⟩ => ⟨S33554432, .f32⟩
  | .hbm, ⟨34, _⟩ => ⟨S_, .f32⟩
  | .hbm, ⟨35, _⟩ => ⟨S16, .f32⟩
  | .hbm, ⟨36, _⟩ => ⟨S33554432x1, .i32⟩
  | .hbm, ⟨37, _⟩ => ⟨S16, .f32⟩
  | .hbm, ⟨38, _⟩ => ⟨S15, .f32⟩
  | .hbm, ⟨39, _⟩ => ⟨S_, .f32⟩
  | .hbm, ⟨40, _⟩ => ⟨S16, .f32⟩
  | .hbm, ⟨41, _⟩ => ⟨S33554432x1, .i32⟩
  | .hbm, ⟨42, _⟩ => ⟨S16, .f32⟩
  | .hbm, ⟨43, _⟩ => ⟨S15, .f32⟩
  | .hbm, ⟨44, _⟩ => ⟨S_, .f32⟩
  | .hbm, ⟨45, _⟩ => ⟨S16, .f32⟩
  | .hbm, ⟨46, _⟩ => ⟨S33554432x1, .i32⟩
  | .hbm, ⟨47, _⟩ => ⟨S16, .f32⟩
  | .hbm, ⟨48, _⟩ => ⟨S15, .f32⟩
  | .hbm, ⟨49, _⟩ => ⟨S_, .f32⟩
  | .hbm, ⟨50, _⟩ => ⟨S15, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S15, .f32⟩
  | .hbm, ⟨56, _⟩ => ⟨S_, .f32⟩
  | .hbm, ⟨57, _⟩ => ⟨S15, .f32⟩
  | .hbm, ⟨58, _⟩ => ⟨S15, .f32⟩
  | .hbm, ⟨59, _⟩ => ⟨S_, .f32⟩
  | .hbm, ⟨60, _⟩ => ⟨S15, .f32⟩
  | .hbm, ⟨61, _⟩ => ⟨S15, .i1⟩
  | .hbm, ⟨62, _⟩ => ⟨S15, .f32⟩
  | .hbm, ⟨63, _⟩ => ⟨S_, .f32⟩
  | .hbm, ⟨64, _⟩ => ⟨S_, .f32⟩
  | .hbm, ⟨65, _⟩ => ⟨S15, .f32⟩
  | .hbm, ⟨66, _⟩ => ⟨S15, .f32⟩
  | .hbm, ⟨67, _⟩ => ⟨S_, .f32⟩
  | .hbm, ⟨68, _⟩ => ⟨S_, .f32⟩
  | .hbm, ⟨69, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_call2_v0 : Ref sig .tc := ⟨.hbm, 64, rfl⟩
abbrev main_call2_v1 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S16 : S_.BroadcastsInDim S16 (![] : Fin 0 → Fin S16.rank)
  bcast_S33554432_S33554432x1_0 : S33554432.BroadcastsInDim S33554432x1 (![0] : Fin 1 → Fin S33554432x1.rank)
  slices_S16_S15_0 : S16.Slices ![0] S15
  bcast_S_S15 : S_.BroadcastsInDim S15 (![] : Fin 0 → Fin S15.rank)
  reducesTo_S15_S_d0 : S15.ReducesTo [0] S_
  h_S_ : 0 < S_.numel
  shapeCasts_S_S1 : S_.ShapeCasts S1
  scatter_S16_S33554432x1_S33554432_n_0_0_1_wf : ScatterDims.WF S16 S33554432x1 S33554432 [] [0] [0] 1

variable [Facts₀]

def scatter_S16_S33554432x1_S33554432_n_0_0_1 : ScatterDims S16 S33554432x1 S33554432 where
  updateWindowDims := []
  insertedWindowDims := [0]
  scatterDimsToOperandDims := [0]
  indexVectorDim := 1
  wf := scatter_S16_S33554432x1_S33554432_n_0_0_1_wf

class Facts : Prop extends Facts₀ where

variable [Facts]
-- ==== Proof.EceSpec.lean ====
/-
  The expected-calibration-error statistics, element by element.

  Each of the N = 2^25 samples has a confidence x (an extended real) and a target y (a 32-bit integer).
  * binOf x is the sample's bin: ceil(15 x) - 1 clamped into [0, 14] when x > 0, and the spare bin 15 otherwise.
  * hitOf x y is 1 when the thresholded prediction [x >= 1/2] equals the target read as a number, else 0.
  * binTotal b cf w is the total of the weights w over the samples whose confidence falls in bin b.
  The three statistics of bin b are binTotal b cf 1 (the count), binTotal b cf cf (the confidence mass) and
  binTotal b cf hit (the number of correct predictions).
-/
import Idealize.ShloMosaic.PureOps.Ideal
import Idealize.ShloMosaic.Lib.ValueIdx

noncomputable section

namespace Cert.Ece

open Idealize.ShloMosaic
open scoped BigOperators

/-- The number of samples. -/
abbrev NE : Nat := 33554432

/-- The bin of a confidence: ceil(15 x) - 1 clamped into [0, 14] when x > 0, the spare bin 15 otherwise. -/
def binOf (x : EReal) : BitVec 32 :=
  Scalar.select (FloatOps.cmpf (F := Ideal) (φ := .f32) .ogt x (Ideal.ofBits .f32 0x00000000#32))
    (IntOp.minsi 14#32 (IntOp.maxsi 0#32 (IntOp.subi
      (FloatOps.fptosi (F := Ideal) (φ := .f32) 32
        (FloatOps.ceil (F := Ideal) (φ := .f32)
          (FloatOps.mulf (F := Ideal) (φ := .f32) x (Ideal.ofBits .f32 0x41700000#32)))) 1#32)))
    15#32

/-- 1 when the prediction [x >= 1/2] agrees with the target y read as a number, 0 otherwise. -/
def hitOf (x : EReal) (y : BitVec 32) : EReal :=
  FloatOps.uitofp (F := Ideal) .f32 (FloatOps.cmpf (F := Ideal) (φ := .f32) .oeq
    (FloatOps.uitofp (F := Ideal) .f32
      (FloatOps.cmpf (F := Ideal) (φ := .f32) .oge x (Ideal.ofBits .f32 0x3F000000#32)))
    (FloatOps.sitofp (F := Ideal) .f32 y))

/-- The total of the weights w over the samples whose confidence cf falls in bin b. -/
def binTotal (b : BitVec 32) (cf w : Fin NE → EReal) : EReal :=
  ∑ e : Fin NE, if binOf (cf e) = b then w e else 0

/-- The shapes of the closing arithmetic: the 15 bins, a scalar, the one-entry result. -/
abbrev B15 : Shape := ⟨1, ![15]⟩
abbrev Sc : Shape := ⟨0, ![]⟩
abbrev R1 : Shape := ⟨1, ![1]⟩
/-- The shape of the sample arrays. -/
abbrev SN : Shape := ⟨1, ![NE]⟩

/-- The closing arithmetic, from the three statistics per bin: with d = max(count, 1),
    the sum over the bins with a positive count of |mass / d - correct / d| * (count / N). -/
def tail (hb : Sc.BroadcastsInDim B15 (![] : Fin 0 → Fin B15.rank)) (hr : B15.ReducesTo [0] Sc) (h0 : 0 < Sc.numel)
    (hc : Sc.ShapeCasts R1) (cnt mass ok : FVec Ideal B15 .f32) : FVec Ideal R1 .f32 :=
  shapeCast R1 (Host.reduceAdd
    (select (cmpf .ogt cnt (broadcastInDim B15 ![] hb (constant (F := Ideal) Sc .f32 0x00000000#32)))
      (mulf (Host.absf (subf
          (Host.divf mass (maximumf cnt (broadcastInDim B15 ![] hb (constant (F := Ideal) Sc .f32 0x3F800000#32))))
          (Host.divf ok (maximumf cnt (broadcastInDim B15 ![] hb (constant (F := Ideal) Sc .f32 0x3F800000#32))))))
        (Host.divf cnt (broadcastInDim B15 ![] hb (constant (F := Ideal) Sc .f32 0x4C000000#32))))
      (broadcastInDim B15 ![] hb (id (constant (F := Ideal) Sc .f32 0x00000000#32))))
    (constant (F := Ideal) Sc .f32 0x00000000#32) hr h0) hc

/-- One statistic as a vector over the 15 bins: entry b is the total of the weights w over bin b. -/
def stat (conf : FVec Ideal SN .f32) (w : Fin NE → EReal) : FVec Ideal B15 .f32 :=
  fun j => binTotal (BitVec.ofNat 32 (j 0).val) (fun e => conf (ValueIdx.ix1 e)) w

/-- The expected calibration error of the samples (conf, tgt), as the one-entry result array. -/
def result (hb : Sc.BroadcastsInDim B15 (![] : Fin 0 → Fin B15.rank)) (hr : B15.ReducesTo [0] Sc) (h0 : 0 < Sc.numel)
    (hc : Sc.ShapeCasts R1) (conf : FVec Ideal SN .f32) (tgt : IVec SN 32) : FVec Ideal R1 .f32 :=
  tail hb hr h0 hc
    (stat conf fun _ => 1)
    (stat conf fun e => conf (ValueIdx.ix1 e))
    (stat conf fun e => hitOf (conf (ValueIdx.ix1 e)) (tgt (ValueIdx.ix1 e)))

/-- A one-bit word widened to 32 bits reads, signed, as the bit itself. -/
theorem sitofp_setWidth_bit (b : BitVec 1) :
    FloatOps.sitofp (F := Ideal) .f32 (b.setWidth 32) = FloatOps.uitofp (F := Ideal) .f32 b := by
  rcases BitVec.eq_zero_or_eq_one b with h | h <;> subst h
  · show (((BitVec.setWidth 32 (0#1)).toInt : ℝ) : EReal) = (((0#1 : BitVec 1).toNat : ℝ) : EReal)
    norm_num
  · show (((BitVec.setWidth 32 (1#1)).toInt : ℝ) : EReal) = (((1#1 : BitVec 1).toNat : ℝ) : EReal)
    norm_num

end Cert.Ece

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibLaneFolds.lean ====
/-
  Reductions along the lanes of an `[a, b]` array, read at a row, on the extended reals, generic in the extents:
  * `laneMax_apply` / `laneSum_apply`: a vector unit's maximum and sum along the lanes, at row `p`, are the fold of
    `max` from the starting value, and the sum, over the row's `b` entries;
  * `hostLaneMax_apply`: the host's one-operand reduction with a maximum body along the same axis is the same fold,
    started at the initial value's one element.
  A fold of `max` is taken in any order (it is commutative and associative), so neither side's traversal order matters.
-/
import Idealize.ShloMosaic.Lib.ValueIdx
import Idealize.ShloMosaic.Lib.Pipeline.Value
import Idealize.ShloMosaic.PureOps.Ideal.Laws

noncomputable section

namespace Cert.LaneFolds

open Idealize.ShloMosaic Idealize.ShloMosaic.ValueIdx
open scoped BigOperators

/-- The maximum along the lanes, at row `p`: the fold of `max` from the starting value over the row's entries. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg (fun f : Fin b → EReal => (Finset.univ : Finset (Fin b)).fold max (Ideal.ofBits .f32 acc) f)
      (funext fun k => congrArg src (funext fun d => Fin.ext (by
        match d with
        | ⟨0, _⟩ => rfl
        | ⟨1, _⟩ => rfl))))

/-- The sum along the lanes, at row `p`: the sum of the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's reduction with a maximum body along the lanes, at row `p`: the same fold, from the initial value. -/
theorem hostLaneMax_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (fun f : Fin b → EReal => (Finset.univ : Finset (Fin b)).fold max (init (Shape.Idx.first hu)) f)
      (funext fun k => congrArg x (funext fun d => Fin.ext (by
        match d with
        | ⟨0, _⟩ => rfl
        | ⟨1, _⟩ => rfl))))

end Cert.LaneFolds

end
-- ==== Proof.LibColumnFolds.lean ====
/-
  Two reductions read at an index, for arrays of any extents, on the extended reals.

  * `laneMin_apply`: the minimum along the lanes of an `[a, b]` array, at row `p`, is the minimum of the row's `b`
    entries and the reduction's starting value (a fold of `min`, in any order).
  * `columnTotal_apply`: the sum down an `[a, 1]` column, kept as a `[1, 1]` array, is at its one index the sum of the
    column's `a` entries.
  * `idx11`: a `[1, 1]` array has one index.
-/
import Idealize.ShloMosaic.Lib.ValueIdx
import Idealize.ShloMosaic.Lib.Pipeline.Value
import Idealize.ShloMosaic.PureOps.Ideal.Laws
import proofs.«105154_j76132590289249_1_alg».proof.Proof.LibColumns

noncomputable section

namespace Cert.ColumnFolds

open Idealize.ShloMosaic Idealize.ShloMosaic.ValueIdx
open scoped BigOperators

/-- Every index of a `[1, 1]` array is `(0, 0)`. -/
theorem idx11 (y : (⟨2, ![1, 1]⟩ : Shape).Idx) : y = ix2 (0 : Fin 1) (0 : Fin 1) := by
  funext d
  match d with
  | ⟨0, _⟩ => exact Fin.ext (by have := idx2_lt0 y; show (y 0).val = 0; omega)
  | ⟨1, _⟩ => exact Fin.ext (by have := idx2_lt1 y; show (y 1).val = 0; omega)

/-- The minimum along the lanes, at row `p`: the fold of `min` from the starting value over the row's entries. -/
theorem laneMin_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.minimumf.neutral .f32 hφ)
    (p : Fin a) :
    multiReduction .minimumf [1] ⟨1, ![a]⟩ src acc h hφ hacc (ix1 p)
      = (Finset.univ : Finset (Fin b)).fold min (Ideal.ofBits .f32 acc) (fun k => src (ix2 p k)) := by
  rw [multiReduction_minimumf_eq_fold]
  refine (h.fold_filter_drop_single _ _ src (ix1 p)).trans ?_
  exact congrArg (fun f : Fin b → EReal => (Finset.univ : Finset (Fin b)).fold min (Ideal.ofBits .f32 acc) f)
    (funext fun k => congrArg src (funext fun d => Fin.ext (by
      match d with
      | ⟨0, _⟩ => rfl
      | ⟨1, _⟩ => rfl)))

/-- The sum down a column, kept as a `[1, 1]` array: at its index, the sum of the column's entries. -/
theorem columnTotal_apply {a : ℕ} (src : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (hc : (⟨1, ![1]⟩ : Shape).ShapeCasts ⟨2, ![1, 1]⟩) (u v : Fin 1) :
    shapeCast ⟨2, ![1, 1]⟩ (multiReduction .add [0] ⟨1, ![1]⟩ src acc h hφ hacc) hc (ix2 u v)
      = ∑ q : Fin a, src (ix2 q (0 : Fin 1)) :=
  (Cert.Columns.shapeCast_a_a1_apply _ hc u v).trans
    ((Ideal.multiReduction_add_single src acc h hφ hacc (ix1 u)).trans
      (Finset.sum_congr rfl fun k _ => congrArg src (funext fun d => Fin.ext (by
        match d with
        | ⟨0, _⟩ => rfl
        | ⟨1, _⟩ =>
          have hu : u.val = 0 := by omega
          show (h.lift (ix1 u) k ⟨1, _⟩).val = 0
          rw [Shape.Reduces.lift_val]
          simp [Shape.Reduces.liftVal, hu]))))

end Cert.ColumnFolds

end
-- ==== Proof.KernelCells.lean ====
/-
  One grid point's contribution to the three statistics, read off the kernel body's arithmetic.

  The body turns its block of 4096 x 128 confidences into the bin word of every entry, and for each bin b = 0..14
  forms three totals over the block — of the 0/1 mask [bin = b], of mask * confidence, and of mask * hit — each by
  a sum along the lanes, then down the rows, kept as a [1, 1] array. The fifteen totals of one kind, followed by 113
  zeros, are laid side by side into a [1, 128] row. Here: that row read at lane l < 15 is the l-th total, and at the
  ideal instance that total is the sum over the block's entries of (if bin = l then weight else 0).
-/
import proofs.«105154_j76132590289249_1_alg».proof.Proof.Gen.KernelIdeal.Skeleton
import proofs.«105154_j76132590289249_1_alg».proof.Proof.EceSpec
import proofs.«105154_j76132590289249_1_alg».proof.Proof.LibColumns
import proofs.«105154_j76132590289249_1_alg».proof.Proof.LibLaneFolds
import proofs.«105154_j76132590289249_1_alg».proof.Proof.LibColumnFolds
import Idealize.ShloMosaic.Lib.Pipeline.Value
import Idealize.ShloMosaic.Lib.ValueIdx
import Idealize.ShloMosaic.Lib.IdealHost

set_option maxRecDepth 16384

noncomputable section

namespace Cert.KernelIdeal.EceBody

open Idealize.ShloMosaic Idealize.ShloMosaic.ValueIdx
open Cert.KernelIdeal Cert.KernelIdeal.Gen
open scoped BigOperators

variable {F : FTy → Type} [FloatOps F]

/-- The 0/1 mask of bin b over a block of bin words, as floats. -/
def maskv (idx : IVec S4096x128 32) (b : Nat) : FVec F S4096x128 .f32 :=
  sitofp .f32 (extui 32 (cmpi .eq idx (broadcast S4096x128 (BitVec.ofNat 32 b))) natLt_1_32)

/-- The total of a block: along the lanes, then down the rows, kept as a [1, 1] array. -/
def cell (s : FVec F S4096x128 .f32) : FVec F S1x1 .f32 :=
  shapeCast S1x1 (multiReduction .add [0] S1
    (shapeCast S4096x1 (multiReduction .add [1] S4096 s 0x00000000#32 reduces_S4096x128_S4096 (.inl rfl) rfl)
      shapeCasts_S4096_S4096x1) 0x00000000#32 reduces_S4096x1_S1 (.inl rfl) rfl) shapeCasts_S1_S1x1

/-- Bin b's three totals over one block: the count, the confidence mass, the correct predictions. -/
def cCnt (x0 : Vec F S4096x128 .f32) (b : Nat) : FVec F S1x1 .f32 := cell (maskv (k0_pay7 x0) b)
def cMass (x0 : Vec F S4096x128 .f32) (b : Nat) : FVec F S1x1 .f32 := cell (mulf (maskv (k0_pay7 x0) b) (k0_pay5 x0))
def cOk (x0 : Vec F S4096x128 .f32) (x1 : Vec F S4096x128 .i32) (b : Nat) : FVec F S1x1 .f32 :=
  cell (mulf (maskv (k0_pay7 x0) b) (k0_pay6 x0 x1))

/-- The 113 zeros that pad a row of fifteen totals to 128 lanes. -/
def zpad : FVec F S1x113 .f32 := broadcast S1x113 (FloatOps.ofBits .f32 0x00000000#32)

/-- The three rows the body adds into the accumulator. -/
def rowCnt (x0 : Vec F S4096x128 .f32) : FVec F S1x128 .f32 :=
  concatenate S1x128 1 [⟨S1x1, cCnt x0 0⟩, ⟨S1x1, cCnt x0 1⟩, ⟨S1x1, cCnt x0 2⟩, ⟨S1x1, cCnt x0 3⟩, ⟨S1x1, cCnt x0 4⟩, ⟨S1x1, cCnt x0 5⟩, ⟨S1x1, cCnt x0 6⟩, ⟨S1x1, cCnt x0 7⟩, ⟨S1x1, cCnt x0 8⟩, ⟨S1x1, cCnt x0 9⟩, ⟨S1x1, cCnt x0 10⟩, ⟨S1x1, cCnt x0 11⟩, ⟨S1x1, cCnt x0 12⟩, ⟨S1x1, cCnt x0 13⟩, ⟨S1x1, cCnt x0 14⟩, ⟨S1x113, zpad⟩] concatenates_S1x1_S1x1_S1x1_S1x1_S1x1_S1x1_S1x1_S1x1_S1x1_S1x1_S1x1_S1x1_S1x1_S1x1_S1x1_S1x113_S1x128_d1
def rowMass (x0 : Vec F S4096x128 .f32) : FVec F S1x128 .f32 :=
  concatenate S1x128 1 [⟨S1x1, cMass x0 0⟩, ⟨S1x1, cMass x0 1⟩, ⟨S1x1, cMass x0 2⟩, ⟨S1x1, cMass x0 3⟩, ⟨S1x1, cMass x0 4⟩, ⟨S1x1, cMass x0 5⟩, ⟨S1x1, cMass x0 6⟩, ⟨S1x1, cMass x0 7⟩, ⟨S1x1, cMass x0 8⟩, ⟨S1x1, cMass x0 9⟩, ⟨S1x1, cMass x0 10⟩, ⟨S1x1, cMass x0 11⟩, ⟨S1x1, cMass x0 12⟩, ⟨S1x1, cMass x0 13⟩, ⟨S1x1, cMass x0 14⟩, ⟨S1x113, zpad⟩] concatenates_S1x1_S1x1_S1x1_S1x1_S1x1_S1x1_S1x1_S1x1_S1x1_S1x1_S1x1_S1x1_S1x1_S1x1_S1x1_S1x113_S1x128_d1
def rowOk (x0 : Vec F S4096x128 .f32) (x1 : Vec F S4096x128 .i32) : FVec F S1x128 .f32 :=
  concatenate S1x128 1 [⟨S1x1, cOk x0 x1 0⟩, ⟨S1x1, cOk x0 x1 1⟩, ⟨S1x1, cOk x0 x1 2⟩, ⟨S1x1, cOk x0 x1 3⟩, ⟨S1x1, cOk x0 x1 4⟩, ⟨S1x1, cOk x0 x1 5⟩, ⟨S1x1, cOk x0 x1 6⟩, ⟨S1x1, cOk x0 x1 7⟩, ⟨S1x1, cOk x0 x1 8⟩, ⟨S1x1, cOk x0 x1 9⟩, ⟨S1x1, cOk x0 x1 10⟩, ⟨S1x1, cOk x0 x1 11⟩, ⟨S1x1, cOk x0 x1 12⟩, ⟨S1x1, cOk x0 x1 13⟩, ⟨S1x1, cOk x0 x1 14⟩, ⟨S1x113, zpad⟩] concatenates_S1x1_S1x1_S1x1_S1x1_S1x1_S1x1_S1x1_S1x1_S1x1_S1x1_S1x1_S1x1_S1x1_S1x1_S1x1_S1x113_S1x128_d1

/-- The body's own spelling of the three rows (its totals are cut differently from bin to bin, but each is the
    same lane-then-row total of the same masked block): definitional unfolding. -/
theorem rowCnt_body (x0 : Vec F S4096x128 .f32) :
    concatenate S1x128 1 [⟨S1x1, k0_pay10 x0⟩, ⟨S1x1, k0_pay15 (k0_pay7 x0)⟩, ⟨S1x1, k0_pay19 (k0_pay7 x0)⟩, ⟨S1x1, k0_pay23 (k0_pay7 x0) 3#32⟩, ⟨S1x1, k0_pay27 (k0_pay7 x0)⟩, ⟨S1x1, k0_pay34 (k0_pay33 (k0_pay7 x0))⟩, ⟨S1x1, k0_pay38 (k0_pay7 x0)⟩, ⟨S1x1, k0_pay42 (k0_pay7 x0)⟩, ⟨S1x1, k0_pay47 (k0_pay7 x0)⟩, ⟨S1x1, k0_pay51 (k0_pay7 x0)⟩, ⟨S1x1, k0_pay56 (k0_pay54 (k0_pay7 x0))⟩, ⟨S1x1, k0_pay60 (k0_pay7 x0)⟩, ⟨S1x1, k0_pay65 (k0_pay7 x0)⟩, ⟨S1x1, k0_pay70 (k0_pay7 x0)⟩, ⟨S1x1, k0_pay74 (k0_pay7 x0)⟩, ⟨S1x113, broadcast S1x113 (FloatOps.ofBits .f32 0x00000000#32)⟩] concatenates_S1x1_S1x1_S1x1_S1x1_S1x1_S1x1_S1x1_S1x1_S1x1_S1x1_S1x1_S1x1_S1x1_S1x1_S1x1_S1x113_S1x128_d1 = rowCnt x0 := rfl
theorem rowMass_body (x0 : Vec F S4096x128 .f32) :
    concatenate S1x128 1 [⟨S1x1, k0_pay12 (k0_pay11 x0)⟩, ⟨S1x1, k0_pay16 (k0_pay5 x0) (k0_pay7 x0)⟩, ⟨S1x1, k0_pay20 (k0_pay5 x0) (k0_pay7 x0)⟩, ⟨S1x1, k0_pay24 (k0_pay5 x0) (k0_pay7 x0) 3#32⟩, ⟨S1x1, k0_pay28 (k0_pay5 x0) (k0_pay7 x0)⟩, ⟨S1x1, k0_pay35 (k0_pay31 (k0_pay5 x0) (k0_pay7 x0))⟩, ⟨S1x1, k0_pay39 (k0_pay5 x0) (k0_pay7 x0)⟩, ⟨S1x1, k0_pay43 (k0_pay5 x0) (k0_pay7 x0)⟩, ⟨S1x1, k0_pay48 (k0_pay5 x0) (k0_pay7 x0)⟩, ⟨S1x1, k0_pay52 (k0_pay5 x0) (k0_pay7 x0)⟩, ⟨S1x1, k0_pay57 (k0_pay55 (k0_pay5 x0) (k0_pay7 x0))⟩, ⟨S1x1, k0_pay61 (k0_pay5 x0) (k0_pay7 x0)⟩, ⟨S1x1, k0_pay67 (k0_pay66 (k0_pay5 x0) (k0_pay7 x0))⟩, ⟨S1x1, k0_pay71 (k0_pay5 x0) (k0_pay7 x0)⟩, ⟨S1x1, k0_pay75 (k0_pay5 x0) (k0_pay7 x0)⟩, ⟨S1x113, broadcast S1x113 (FloatOps.ofBits .f32 0x00000000#32)⟩] concatenates_S1x1_S1x1_S1x1_S1x1_S1x1_S1x1_S1x1_S1x1_S1x1_S1x1_S1x1_S1x1_S1x1_S1x1_S1x1_S1x113_S1x128_d1 = rowMass x0 := rfl
theorem rowOk_body (x0 : Vec F S4096x128 .f32) (x1 : Vec F S4096x128 .i32) :
    concatenate S1x128 1 [⟨S1x1, k0_pay13 (k0_pay9 x0 x1)⟩, ⟨S1x1, k0_pay17 (k0_pay6 x0 x1) (k0_pay7 x0)⟩, ⟨S1x1, k0_pay21 (k0_pay6 x0 x1) (k0_pay7 x0)⟩, ⟨S1x1, k0_pay25 (k0_pay6 x0 x1) (k0_pay7 x0) 3#32⟩, ⟨S1x1, k0_pay29 (k0_pay6 x0 x1) (k0_pay7 x0)⟩, ⟨S1x1, k0_pay36 (k0_pay32 (k0_pay6 x0 x1) (k0_pay7 x0))⟩, ⟨S1x1, k0_pay40 (k0_pay6 x0 x1) (k0_pay7 x0)⟩, ⟨S1x1, k0_pay45 (k0_pay44 (k0_pay6 x0 x1) (k0_pay7 x0))⟩, ⟨S1x1, k0_pay49 (k0_pay6 x0 x1) (k0_pay7 x0)⟩, ⟨S1x1, k0_pay53 (k0_pay6 x0 x1) (k0_pay7 x0)⟩, ⟨S1x1, k0_pay58 (k0_pay6 x0 x1) (k0_pay54 (k0_pay7 x0))⟩, ⟨S1x1, k0_pay62 (k0_pay6 x0 x1) (k0_pay7 x0)⟩, ⟨S1x1, k0_pay68 (k0_pay64 (k0_pay6 x0 x1) (k0_pay7 x0))⟩, ⟨S1x1, k0_pay72 (k0_pay6 x0 x1) (k0_pay7 x0)⟩, ⟨S1x1, k0_pay76 (k0_pay6 x0 x1) (k0_pay7 x0)⟩, ⟨S1x113, broadcast S1x113 (FloatOps.ofBits .f32 0x00000000#32)⟩] concatenates_S1x1_S1x1_S1x1_S1x1_S1x1_S1x1_S1x1_S1x1_S1x1_S1x1_S1x1_S1x1_S1x1_S1x1_S1x1_S1x113_S1x128_d1 = rowOk x0 x1 := rfl

/-- The extents along the lanes of the first k of the sixteen pieces add up to k, for k ≤ 15 (fifteen unit pieces). -/
theorem pre15 : ∀ k : Fin 15, ((([S1x1, S1x1, S1x1, S1x1, S1x1, S1x1, S1x1, S1x1, S1x1, S1x1, S1x1, S1x1, S1x1, S1x1, S1x1, S1x113] : List Shape).take k.val).map fun s =>
    if h : s.rank = S1x128.rank then s.size ((1 : Fin S1x128.rank).cast h.symm) else 0).sum = k.val := by decide

set_option maxHeartbeats 2000000 in
/-- A row of fifteen [1, 1] pieces and a pad, read at lane l < 15: the one entry of the l-th piece. -/
theorem concat15_apply {α : Type} (u : Nat → (S1x1.Idx → α)) (z : S1x113.Idx → α) (l : Fin 128) (hl : l.val < 15) :
    concatenate S1x128 1 [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) l)
      = u l.val (ix2 (0 : Fin 1) (0 : Fin 1)) := by
  obtain ⟨lv, hlv⟩ := l
  have hl' : lv < 15 := hl
  have key : ∀ k : Nat, k < 15 → ∀ hk128 : k < 128,
      concatenate S1x128 1 [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨k, hk128⟩ : Fin 128))
        = u k (ix2 (0 : Fin 1) (0 : Fin 1)) := by
    intro k hk hk128
    -- off the concatenation axis the piece's index and the row's index agree (both are row 0)
    have offAxis : ∀ (j : S1x128.Idx), (j 0).val = 0 → ∀ b : Fin S1x1.rank, b.cast (rfl : S1x1.rank = S1x128.rank) ≠ (1 : Fin S1x128.rank) →
        ((ix2 (0 : Fin 1) (0 : Fin 1) : S1x1.Idx) b).val = (j (b.cast (rfl : S1x1.rank = S1x128.rank))).val := by
      intro j hj b hb
      match b with
      | ⟨0, _⟩ => exact hj.symm
      | ⟨1, _⟩ => exact absurd rfl hb
    interval_cases k
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨0, hk128⟩ : Fin 128)) 0 (by show 0 < 16; omega) S1x1 (u 0) rfl rfl 0 (pre15 ⟨0, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨1, hk128⟩ : Fin 128)) 1 (by show 1 < 16; omega) S1x1 (u 1) rfl rfl 1 (pre15 ⟨1, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨2, hk128⟩ : Fin 128)) 2 (by show 2 < 16; omega) S1x1 (u 2) rfl rfl 2 (pre15 ⟨2, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨3, hk128⟩ : Fin 128)) 3 (by show 3 < 16; omega) S1x1 (u 3) rfl rfl 3 (pre15 ⟨3, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨4, hk128⟩ : Fin 128)) 4 (by show 4 < 16; omega) S1x1 (u 4) rfl rfl 4 (pre15 ⟨4, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨5, hk128⟩ : Fin 128)) 5 (by show 5 < 16; omega) S1x1 (u 5) rfl rfl 5 (pre15 ⟨5, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨6, hk128⟩ : Fin 128)) 6 (by show 6 < 16; omega) S1x1 (u 6) rfl rfl 6 (pre15 ⟨6, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨7, hk128⟩ : Fin 128)) 7 (by show 7 < 16; omega) S1x1 (u 7) rfl rfl 7 (pre15 ⟨7, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨8, hk128⟩ : Fin 128)) 8 (by show 8 < 16; omega) S1x1 (u 8) rfl rfl 8 (pre15 ⟨8, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨9, hk128⟩ : Fin 128)) 9 (by show 9 < 16; omega) S1x1 (u 9) rfl rfl 9 (pre15 ⟨9, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨10, hk128⟩ : Fin 128)) 10 (by show 10 < 16; omega) S1x1 (u 10) rfl rfl 10 (pre15 ⟨10, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨11, hk128⟩ : Fin 128)) 11 (by show 11 < 16; omega) S1x1 (u 11) rfl rfl 11 (pre15 ⟨11, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨12, hk128⟩ : Fin 128)) 12 (by show 12 < 16; omega) S1x1 (u 12) rfl rfl 12 (pre15 ⟨12, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨13, hk128⟩ : Fin 128)) 13 (by show 13 < 16; omega) S1x1 (u 13) rfl rfl 13 (pre15 ⟨13, by omega⟩) (ix2 (0 : Fin 1) (0 : Fin 1)) (offAxis _ rfl) rfl
    · exact concatenate_apply_piece (1 : Fin S1x128.rank) [⟨S1x1, u 0⟩, ⟨S1x1, u 1⟩, ⟨S1x1, u 2⟩, ⟨S1x1, u 3⟩, ⟨S1x1, u 4⟩, ⟨S1x1, u 5⟩, ⟨S1x1, u 6⟩, ⟨S1x1, u 7⟩, ⟨S1x1, u 8⟩, ⟨S1x1, u 9⟩, ⟨S1x1, u 10⟩, ⟨S1x1, u 11⟩, ⟨S1x1, u 12⟩, ⟨S1x1, u 13⟩, ⟨S1x1, u 14⟩, ⟨S1x113, z⟩] concatenates_S1x1_S1x1_S1x1_S1x1_S1x1_S1x1_S1x1_S1x1_S1x1_S1x1_S1x1_S1x1_S1x1_S1x1_S1x1_S1x113_S1x128_d1 (ix2 (0 : Fin 1) (⟨14, hk128⟩ : Fin 128)) 14 (by show 14 < 16; omega) S1x1 (u 14) rfl rfl 14 (pre15 ⟨14, by omega⟩) (ix2 (0 : Fin 1) (0 : Fin 1)) (offAxis _ rfl) rfl
  exact key lv hl' hlv

/-! ## At the ideal instance -/

/-- A block's total, at its one index: the sum over the rows of the sums along the lanes. -/
theorem cell_apply (s : FVec Ideal S4096x128 .f32) :
    cell s (ix2 (0 : Fin 1) (0 : Fin 1)) = ∑ q : Fin 4096, ∑ k : Fin 128, s (ix2 q k) := by
  unfold cell
  refine (Cert.ColumnFolds.columnTotal_apply _ _ _ _ _ _ (0 : Fin 1) (0 : Fin 1)).trans ?_
  refine Finset.sum_congr rfl fun q _ => ?_
  refine (Cert.Columns.shapeCast_a_a1_apply _ _ q (0 : Fin 1)).trans ?_
  exact Cert.LaneFolds.laneSum_apply s _ _ _ _ q

/-- The mask of bin b at an entry: 1 where the bin word is b, 0 elsewhere. -/
theorem maskv_apply (idx : IVec S4096x128 32) (b : Nat) (i : S4096x128.Idx) :
    maskv (F := Ideal) idx b i = if idx i = BitVec.ofNat 32 b then (1 : EReal) else 0 := by
  show FloatOps.sitofp (F := Ideal) .f32 ((IntOp.cmpi .eq (idx i) (BitVec.ofNat 32 b)).setWidth 32) = _
  rw [Cert.Ece.sitofp_setWidth_bit]
  show (((BitVec.ofBool (idx i == BitVec.ofNat 32 b)).toNat : ℝ) : EReal) = _
  by_cases h : idx i = BitVec.ofNat 32 b
  · rw [if_pos h, h]
    simp
  · rw [if_neg h]
    have hb : (idx i == BitVec.ofNat 32 b) = false := by simpa using h
    rw [hb]
    simp

/-- The body's bin word at an entry is the bin of that entry's confidence. -/
theorem bin_apply (x0 : Vec Ideal S4096x128 .f32) (i : S4096x128.Idx) : k0_pay7 x0 i = Cert.Ece.binOf (x0 i) := by
  have e : k0_pay5 x0 = x0 := shapeCast_self x0 _
  unfold k0_pay7
  simp only [e]
  rfl

/-- The body's confidence block is the block loaded. -/
theorem conf_apply (x0 : Vec Ideal S4096x128 .f32) : k0_pay5 x0 = x0 := shapeCast_self x0 _

/-- The body's 0/1 correctness at an entry is hitOf of that entry's confidence and target. -/
theorem hit_apply (x0 : Vec Ideal S4096x128 .f32) (x1 : Vec Ideal S4096x128 .i32) (i : S4096x128.Idx) :
    k0_pay6 x0 x1 i = Cert.Ece.hitOf (x0 i) (x1 i) := by
  have e0 : k0_pay5 x0 = x0 := shapeCast_self x0 _
  have e1 : shapeCast S4096x128 x1 shapeCasts_S4096x128_S4096x128 = x1 := shapeCast_self x1 _
  unfold k0_pay6
  simp only [e0, e1]
  show FloatOps.sitofp (F := Ideal) .f32 ((FloatOps.cmpf (F := Ideal) (φ := .f32) .oeq
      (FloatOps.sitofp (F := Ideal) .f32 ((FloatOps.cmpf (F := Ideal) (φ := .f32) .oge (x0 i)
        (Ideal.ofBits .f32 0x3F000000#32)).setWidth 32))
      (FloatOps.sitofp (F := Ideal) .f32 (x1 i))).setWidth 32) = _
  rw [Cert.Ece.sitofp_setWidth_bit, Cert.Ece.sitofp_setWidth_bit]
  rfl

/-- A 0/1 mask times a weight keeps the weight where the mask is 1. -/
theorem ite_one_zero_mul (p : Prop) [Decidable p] (w : EReal) : (if p then (1 : EReal) else 0) * w = if p then w else 0 := by
  split <;> simp

/-- Lane l < 15 of the count row: the number of the block's entries in bin l. -/
theorem rowCnt_apply (x0 : Vec Ideal S4096x128 .f32) (l : Fin 128) (hl : l.val < 15) :
    rowCnt x0 (ix2 (0 : Fin 1) l)
      = ∑ q : Fin 4096, ∑ k : Fin 128, if Cert.Ece.binOf (x0 (ix2 q k)) = BitVec.ofNat 32 l.val then (1 : EReal) else 0 := by
  unfold rowCnt
  refine (concat15_apply (cCnt x0) zpad l hl).trans ?_
  unfold cCnt
  refine (cell_apply _).trans ?_
  refine Finset.sum_congr rfl fun q _ => Finset.sum_congr rfl fun k _ => ?_
  rw [maskv_apply, bin_apply]

/-- Lane l < 15 of the mass row: the total confidence of the block's entries in bin l. -/
theorem rowMass_apply (x0 : Vec Ideal S4096x128 .f32) (l : Fin 128) (hl : l.val < 15) :
    rowMass x0 (ix2 (0 : Fin 1) l)
      = ∑ q : Fin 4096, ∑ k : Fin 128, if Cert.Ece.binOf (x0 (ix2 q k)) = BitVec.ofNat 32 l.val then x0 (ix2 q k) else 0 := by
  unfold rowMass
  refine (concat15_apply (cMass x0) zpad l hl).trans ?_
  unfold cMass
  refine (cell_apply _).trans ?_
  refine Finset.sum_congr rfl fun q _ => Finset.sum_congr rfl fun k _ => ?_
  rw [mulf_apply, maskv_apply, bin_apply, conf_apply, ite_one_zero_mul]

/-- Lane l < 15 of the correctness row: the number of correct predictions among the block's entries in bin l. -/
theorem rowOk_apply (x0 : Vec Ideal S4096x128 .f32) (x1 : Vec Ideal S4096x128 .i32) (l : Fin 128) (hl : l.val < 15) :
    rowOk x0 x1 (ix2 (0 : Fin 1) l)
      = ∑ q : Fin 4096, ∑ k : Fin 128,
          if Cert.Ece.binOf (x0 (ix2 q k)) = BitVec.ofNat 32 l.val then Cert.Ece.hitOf (x0 (ix2 q k)) (x1 (ix2 q k)) else 0 := by
  unfold rowOk
  refine (concat15_apply (cOk x0 x1) zpad l hl).trans ?_
  unfold cOk
  refine (cell_apply _).trans ?_
  refine Finset.sum_congr rfl fun q _ => Finset.sum_congr rfl fun k _ => ?_
  rw [mulf_apply, maskv_apply, bin_apply, hit_apply, ite_one_zero_mul]

end Cert.KernelIdeal.EceBody

end
-- ==== Proof.KernelPieces.lean ====
/-
  What one grid point leaves in the accumulator block, rows 0, 1 and 2.

  The body ends with three stores of whole rows: row r of the accumulator block becomes (row r as it was) + (the
  point's row of fifteen totals). At the first grid point the block is first filled with zeros, so row r becomes
  0 + (the row of totals); at every later point row r as it was is what the point before left there.
-/
import proofs.«105154_j76132590289249_1_alg».proof.Proof.Gen.KernelIdeal.Frame
import proofs.«105154_j76132590289249_1_alg».proof.Proof.KernelCells
import Idealize.ShloMosaic.Lib.WritesUnit
import Idealize.ShloMosaic.Lib.Pipeline.Value
import Idealize.ShloMosaic.Lib.Tactic
import Idealize.ShloMosaic.PureOps.Ideal.Laws

set_option maxRecDepth 16384

noncomputable section

namespace Cert.KernelIdeal.EceBody

open Idealize.ShloMosaic Idealize.ShloMosaic.TcCoe Idealize.ShloMosaic.ValueIdx Idealize.SL.Sem
open Cert.KernelIdeal Cert.KernelIdeal.Gen

theorem hz : (![0, 0] : Fin 2 → Nat) = fun _ => 0 := funext fun a => by fin_cases a <;> rfl

/-- Row o of an [8, 128] array, through the rectangle of that one row: position (0, l) of the rectangle is
    entry (o, l) of the array. -/
theorem idx_row (o : Nat) (ho : o < 8) (inb : ∀ a, (![o, 0] : Fin 2 → ℕ) a + (![1, 128] : Fin 2 → ℕ) a ≤ S8x128.size a)
    (l : Fin 128) :
    (Rect.unit (s := S8x128) ![o, 0] ![1, 128] inb).idx (ix2 (0 : Fin 1) l) = ix2 (⟨o, ho⟩ : Fin 8) l :=
  funext fun a => Fin.ext (by
    match a with
    | ⟨0, _⟩ => show o + 1 * 0 = o; omega
    | ⟨1, _⟩ => show 0 + 1 * l.val = l.val; omega)

section Rows3

variable {sig' : RefSig} {κ : Kind} {sp : Space} {Val : EltTy → Type}
variable (v : View sig' κ sp S8x128 .f32) (f : v.ty.Contents Val)
variable (i2 : ∀ a, (![2, 0] : Fin 2 → ℕ) a + (![1, 128] : Fin 2 → ℕ) a ≤ S8x128.size a)
  (i1 : ∀ a, (![1, 0] : Fin 2 → ℕ) a + (![1, 128] : Fin 2 → ℕ) a ≤ S8x128.size a)
  (i0 : ∀ a, (![0, 0] : Fin 2 → ℕ) a + (![1, 128] : Fin 2 → ℕ) a ≤ S8x128.size a)
  (w2 : (Rect.unit (s := S8x128) ![2, 0] ![1, 128] i2).shape.Idx → Val .f32)
  (w1 : (Rect.unit (s := S8x128) ![1, 0] ![1, 128] i1).shape.Idx → Val .f32)
  (w0 : (Rect.unit (s := S8x128) ![0, 0] ![1, 128] i0).shape.Idx → Val .f32)
  (L : List (View.Piece Val S8x128 .f32)) (l : Fin 128)

/-- After stores of rows 0, 1, 2 (in that order, over anything), row 2 reads the last store's payload, -/
theorem read_rows3_2 :
    v.read Val (v.writes Val f (⟨Rect.unit (s := S8x128) ![2, 0] ![1, 128] i2, w2⟩ :: ⟨Rect.unit (s := S8x128) ![1, 0] ![1, 128] i1, w1⟩
      :: ⟨Rect.unit (s := S8x128) ![0, 0] ![1, 128] i0, w0⟩ :: L)) (ix2 (2 : Fin 8) l) = w2 (ix2 (0 : Fin 1) l) :=
  View.read_writes_cons_rows_of_mem v f i2 w2 _ (ix2 (2 : Fin 8) l) (ix2 (0 : Fin 1) l) rfl rfl rfl

/-- row 1 the middle store's, -/
theorem read_rows3_1 :
    v.read Val (v.writes Val f (⟨Rect.unit (s := S8x128) ![2, 0] ![1, 128] i2, w2⟩ :: ⟨Rect.unit (s := S8x128) ![1, 0] ![1, 128] i1, w1⟩
      :: ⟨Rect.unit (s := S8x128) ![0, 0] ![1, 128] i0, w0⟩ :: L)) (ix2 (1 : Fin 8) l) = w1 (ix2 (0 : Fin 1) l) :=
  (View.read_writes_cons_rows_of_not_mem v f i2 w2 _ (ix2 (1 : Fin 8) l) (o := 2) (W := 1) rfl rfl
      (Or.inl (by show (1 : ℕ) < 2; omega))).trans
    (View.read_writes_cons_rows_of_mem v f i1 w1 _ (ix2 (1 : Fin 8) l) (ix2 (0 : Fin 1) l) rfl rfl rfl)

/-- row 0 the first store's. -/
theorem read_rows3_0 :
    v.read Val (v.writes Val f (⟨Rect.unit (s := S8x128) ![2, 0] ![1, 128] i2, w2⟩ :: ⟨Rect.unit (s := S8x128) ![1, 0] ![1, 128] i1, w1⟩
      :: ⟨Rect.unit (s := S8x128) ![0, 0] ![1, 128] i0, w0⟩ :: L)) (ix2 (0 : Fin 8) l) = w0 (ix2 (0 : Fin 1) l) :=
  (View.read_writes_cons_rows_of_not_mem v f i2 w2 _ (ix2 (0 : Fin 8) l) (o := 2) (W := 1) rfl rfl
      (Or.inl (by show (0 : ℕ) < 2; omega))).trans
    ((View.read_writes_cons_rows_of_not_mem v f i1 w1 _ (ix2 (0 : Fin 8) l) (o := 1) (W := 1) rfl rfl
      (Or.inl (by show (0 : ℕ) < 1; omega))).trans
    (View.read_writes_cons_rows_of_mem v f i0 w0 _ (ix2 (0 : Fin 8) l) (ix2 (0 : Fin 1) l) rfl rfl rfl))

end Rows3

/-! ## A later grid point: the rows as the point before left them, plus this point's totals -/

section CaseB

variable (c : Dev nD) (i : grid0.Coords) (a1 : Memref sig .tc .vmem S4096x128 .f32) (h1 : a1.IsWhole)
    (a2 : Memref sig .tc .vmem S4096x128 .i32) (h2 : a2.IsWhole) (a3 : Memref sig .tc .vmem S8x128 .f32) (h3 : a3.IsWhole)
  (hc : ¬cond0_0 i) (x0 : Vec Ideal S4096x128 .f32) (x1 : Vec Ideal S4096x128 .i32) (xo : Vec Ideal S8x128 .f32) (l : Fin 128)

theorem out_B_row0 :
    out0_B_2 (F := Ideal) c i a1 h1 a2 h2 a3 h3 hc x0 x1 xo (ix2 (0 : Fin 8) l)
      = xo (ix2 (0 : Fin 8) l) + rowCnt x0 (ix2 (0 : Fin 1) l) := by
  unfold out0_B_2 kernelRun0_B
  dsimp only
  sl_unfold_words
  simp only [View.readAt_eq_ld, h3.read_unread]
  rw [rowCnt_body, rowMass_body, rowOk_body]
  refine (read_rows3_0 a3.view _ _ _ _ _ _ _ _ l).trans ?_
  unfold k0_pay1
  show (shapeCast S1x128 (View.ld xo (Rect.unit (s := S8x128) ![0, 0] ![1, 128] _)) _) (ix2 (0 : Fin 1) l) + _ = _
  have e0 : View.ld (View.read (Elt Ideal) a1.view (h1.unread x0)) (Rect.unit (s := S4096x128) ![0, 0] S4096x128.size inb_S4096x128_S4096x128_0_0) = x0 := by
    rw [h1.read_unread]; exact View.ld_unit_zero hz _ x0
  have e1 : View.ld (View.read (Elt Ideal) a2.view (h2.unread x1)) (Rect.unit (s := S4096x128) ![0, 0] S4096x128.size inb_S4096x128_S4096x128_0_0) = x1 := by
    rw [h2.read_unread]; exact View.ld_unit_zero hz _ x1
  rw [e0]
  exact congrArg (· + rowCnt x0 (ix2 (0 : Fin 1) l))
    ((congrFun (shapeCast_self (s := S1x128) (View.ld xo (Rect.unit (s := S8x128) ![0, 0] ![1, 128] _)) _) (ix2 (0 : Fin 1) l)).trans
      (congrArg xo (idx_row 0 (by omega) _ l)))

theorem out_B_row1 :
    out0_B_2 (F := Ideal) c i a1 h1 a2 h2 a3 h3 hc x0 x1 xo (ix2 (1 : Fin 8) l)
      = xo (ix2 (1 : Fin 8) l) + rowMass x0 (ix2 (0 : Fin 1) l) := by
  unfold out0_B_2 kernelRun0_B
  dsimp only
  sl_unfold_words
  simp only [View.readAt_eq_ld, h3.read_unread]
  rw [rowCnt_body, rowMass_body, rowOk_body]
  refine (read_rows3_1 a3.view _ _ _ _ _ _ _ _ l).trans ?_
  unfold k0_pay2
  show (shapeCast S1x128 (View.ld xo (Rect.unit (s := S8x128) ![1, 0] ![1, 128] _)) _) (ix2 (0 : Fin 1) l) + _ = _
  have e0 : View.ld (View.read (Elt Ideal) a1.view (h1.unread x0)) (Rect.unit (s := S4096x128) ![0, 0] S4096x128.size inb_S4096x128_S4096x128_0_0) = x0 := by
    rw [h1.read_unread]; exact View.ld_unit_zero hz _ x0
  have e1 : View.ld (View.read (Elt Ideal) a2.view (h2.unread x1)) (Rect.unit (s := S4096x128) ![0, 0] S4096x128.size inb_S4096x128_S4096x128_0_0) = x1 := by
    rw [h2.read_unread]; exact View.ld_unit_zero hz _ x1
  rw [e0]
  exact congrArg (· + rowMass x0 (ix2 (0 : Fin 1) l))
    ((congrFun (shapeCast_self (s := S1x128) (View.ld xo (Rect.unit (s := S8x128) ![1, 0] ![1, 128] _)) _) (ix2 (0 : Fin 1) l)).trans
      (congrArg xo (idx_row 1 (by omega) _ l)))

theorem out_B_row2 :
    out0_B_2 (F := Ideal) c i a1 h1 a2 h2 a3 h3 hc x0 x1 xo (ix2 (2 : Fin 8) l)
      = xo (ix2 (2 : Fin 8) l) + rowOk x0 x1 (ix2 (0 : Fin 1) l) := by
  unfold out0_B_2 kernelRun0_B
  dsimp only
  sl_unfold_words
  simp only [View.readAt_eq_ld, h3.read_unread]
  rw [rowCnt_body, rowMass_body, rowOk_body]
  refine (read_rows3_2 a3.view _ _ _ _ _ _ _ _ l).trans ?_
  unfold k0_pay3
  show (shapeCast S1x128 (View.ld xo (Rect.unit (s := S8x128) ![2, 0] ![1, 128] _)) _) (ix2 (0 : Fin 1) l) + _ = _
  have e0 : View.ld (View.read (Elt Ideal) a1.view (h1.unread x0)) (Rect.unit (s := S4096x128) ![0, 0] S4096x128.size inb_S4096x128_S4096x128_0_0) = x0 := by
    rw [h1.read_unread]; exact View.ld_unit_zero hz _ x0
  have e1 : View.ld (View.read (Elt Ideal) a2.view (h2.unread x1)) (Rect.unit (s := S4096x128) ![0, 0] S4096x128.size inb_S4096x128_S4096x128_0_0) = x1 := by
    rw [h2.read_unread]; exact View.ld_unit_zero hz _ x1
  rw [e0, e1]
  exact congrArg (· + rowOk x0 x1 (ix2 (0 : Fin 1) l))
    ((congrFun (shapeCast_self (s := S1x128) (View.ld xo (Rect.unit (s := S8x128) ![2, 0] ![1, 128] _)) _) (ix2 (0 : Fin 1) l)).trans
      (congrArg xo (idx_row 2 (by omega) _ l)))

end CaseB

/-! ## The first grid point: the block is zeroed first, so each row is 0 plus this point's totals -/

section Zeroed

variable {sig' : RefSig} {κ : Kind} {sp : Space} {Val : EltTy → Type}
variable (v : View sig' κ sp S8x128 .f32) (f : v.ty.Contents Val)
variable (iz : ∀ a, (![0, 0] : Fin 2 → ℕ) a + S8x128.size a ≤ S8x128.size a)
  (i1 : ∀ a, (![1, 0] : Fin 2 → ℕ) a + (![1, 128] : Fin 2 → ℕ) a ≤ S8x128.size a)
  (i0 : ∀ a, (![0, 0] : Fin 2 → ℕ) a + (![1, 128] : Fin 2 → ℕ) a ≤ S8x128.size a)
  (z : (Rect.unit (s := S8x128) ![0, 0] S8x128.size iz).shape.Idx → Val .f32)
  (w1 : (Rect.unit (s := S8x128) ![1, 0] ![1, 128] i1).shape.Idx → Val .f32)
  (w0 : (Rect.unit (s := S8x128) ![0, 0] ![1, 128] i0).shape.Idx → Val .f32)
  (l : Fin 128)

/-- After a store of the whole block, every entry reads that store's payload; -/
theorem read_fill (y : S8x128.Idx) :
    v.read Val (v.writes Val f [⟨Rect.unit (s := S8x128) ![0, 0] S8x128.size iz, z⟩]) y = z y :=
  View.read_writes_cons_unit_of_mem v f iz z [] y y rfl (fun a => by
    match a with
    | ⟨0, _⟩ => exact (Nat.zero_add _).symm
    | ⟨1, _⟩ => exact (Nat.zero_add _).symm)

/-- a later store of row 0 does not change row 1; -/
theorem read_fill_1 :
    v.read Val (v.writes Val f [⟨Rect.unit (s := S8x128) ![0, 0] ![1, 128] i0, w0⟩, ⟨Rect.unit (s := S8x128) ![0, 0] S8x128.size iz, z⟩])
      (ix2 (1 : Fin 8) l) = z (ix2 (1 : Fin 8) l) :=
  (View.read_writes_cons_rows_of_not_mem v f i0 w0 _ (ix2 (1 : Fin 8) l) (o := 0) (W := 1) rfl rfl
      (Or.inr (by show 0 + 1 ≤ (1 : ℕ); omega))).trans (read_fill v f iz z _)

/-- later stores of rows 0 and 1 do not change row 2. -/
theorem read_fill_2 :
    v.read Val (v.writes Val f [⟨Rect.unit (s := S8x128) ![1, 0] ![1, 128] i1, w1⟩, ⟨Rect.unit (s := S8x128) ![0, 0] ![1, 128] i0, w0⟩,
      ⟨Rect.unit (s := S8x128) ![0, 0] S8x128.size iz, z⟩]) (ix2 (2 : Fin 8) l) = z (ix2 (2 : Fin 8) l) :=
  (View.read_writes_cons_rows_of_not_mem v f i1 w1 _ (ix2 (2 : Fin 8) l) (o := 1) (W := 1) rfl rfl
      (Or.inr (by show 1 + 1 ≤ (2 : ℕ); omega))).trans
    ((View.read_writes_cons_rows_of_not_mem v f i0 w0 _ (ix2 (2 : Fin 8) l) (o := 0) (W := 1) rfl rfl
      (Or.inr (by show 0 + 1 ≤ (2 : ℕ); omega))).trans (read_fill v f iz z _))

end Zeroed

/-- The zero block the first point stores reads 0 everywhere. -/
theorem fill_zero (y : S8x128.Idx) : (k0_pay4 (F := Ideal)) y = 0 := Ideal.ofBits_zero_f32

section CaseA

variable (c : Dev nD) (i : grid0.Coords) (a1 : Memref sig .tc .vmem S4096x128 .f32) (h1 : a1.IsWhole)
    (a2 : Memref sig .tc .vmem S4096x128 .i32) (h2 : a2.IsWhole) (a3 : Memref sig .tc .vmem S8x128 .f32) (h3 : a3.IsWhole)
  (hc : cond0_0 i) (x0 : Vec Ideal S4096x128 .f32) (x1 : Vec Ideal S4096x128 .i32) (l : Fin 128)

theorem out_A_row0 :
    out0_A_2 (F := Ideal) c i a1 h1 a2 h2 a3 h3 hc x0 x1 (ix2 (0 : Fin 8) l) = rowCnt x0 (ix2 (0 : Fin 1) l) := by
  unfold out0_A_2 kernelRun0_A
  dsimp only
  sl_unfold_words
  simp only [View.readAt_eq_ld]
  rw [rowCnt_body, rowMass_body, rowOk_body]
  refine (read_rows3_0 VO0_2 _ _ _ _ _ _ _ _ l).trans ?_
  unfold k0_pay1
  show (shapeCast S1x128 (View.readCov (Val := Elt Ideal) a3.view _ (Rect.unit (s := S8x128) ![0, 0] ![1, 128] _).toLoadRect) _) (ix2 (0 : Fin 1) l) + _ = _
  have e0 : View.ld (View.read (Elt Ideal) a1.view (h1.unread x0)) (Rect.unit (s := S4096x128) ![0, 0] S4096x128.size inb_S4096x128_S4096x128_0_0) = x0 := by
    rw [h1.read_unread]; exact View.ld_unit_zero hz _ x0
  have e1 : View.ld (View.read (Elt Ideal) a2.view (h2.unread x1)) (Rect.unit (s := S4096x128) ![0, 0] S4096x128.size inb_S4096x128_S4096x128_0_0) = x1 := by
    rw [h2.read_unread]; exact View.ld_unit_zero hz _ x1
  rw [e0]
  refine (congrArg (· + rowCnt x0 (ix2 (0 : Fin 1) l))
    ((congrFun (shapeCast_self (s := S1x128) (View.readCov (Val := Elt Ideal) a3.view _ (Rect.unit (s := S8x128) ![0, 0] ![1, 128] _).toLoadRect) _) (ix2 (0 : Fin 1) l)).trans ?_)).trans (zero_add _)
  unfold View.readCov
  rw [View.readAt_apply]
  refine (congrArg (View.read (Elt Ideal) a3.view _) (idx_row 0 (by omega) _ l)).trans ?_
  exact (read_fill a3.view _ _ _ _).trans (fill_zero _)

theorem out_A_row1 :
    out0_A_2 (F := Ideal) c i a1 h1 a2 h2 a3 h3 hc x0 x1 (ix2 (1 : Fin 8) l) = rowMass x0 (ix2 (0 : Fin 1) l) := by
  unfold out0_A_2 kernelRun0_A
  dsimp only
  sl_unfold_words
  simp only [View.readAt_eq_ld]
  rw [rowCnt_body, rowMass_body, rowOk_body]
  refine (read_rows3_1 VO0_2 _ _ _ _ _ _ _ _ l).trans ?_
  unfold k0_pay2
  show (shapeCast S1x128 (View.readCov (Val := Elt Ideal) a3.view _ (Rect.unit (s := S8x128) ![1, 0] ![1, 128] _).toLoadRect) _) (ix2 (0 : Fin 1) l) + _ = _
  have e0 : View.ld (View.read (Elt Ideal) a1.view (h1.unread x0)) (Rect.unit (s := S4096x128) ![0, 0] S4096x128.size inb_S4096x128_S4096x128_0_0) = x0 := by
    rw [h1.read_unread]; exact View.ld_unit_zero hz _ x0
  have e1 : View.ld (View.read (Elt Ideal) a2.view (h2.unread x1)) (Rect.unit (s := S4096x128) ![0, 0] S4096x128.size inb_S4096x128_S4096x128_0_0) = x1 := by
    rw [h2.read_unread]; exact View.ld_unit_zero hz _ x1
  rw [e0]
  refine (congrArg (· + rowMass x0 (ix2 (0 : Fin 1) l))
    ((congrFun (shapeCast_self (s := S1x128) (View.readCov (Val := Elt Ideal) a3.view _ (Rect.unit (s := S8x128) ![1, 0] ![1, 128] _).toLoadRect) _) (ix2 (0 : Fin 1) l)).trans ?_)).trans (zero_add _)
  unfold View.readCov
  rw [View.readAt_apply]
  refine (congrArg (View.read (Elt Ideal) a3.view _) (idx_row 1 (by omega) _ l)).trans ?_
  exact (read_fill_1 a3.view _ _ _ _ _ l).trans (fill_zero _)

theorem out_A_row2 :
    out0_A_2 (F := Ideal) c i a1 h1 a2 h2 a3 h3 hc x0 x1 (ix2 (2 : Fin 8) l) = rowOk x0 x1 (ix2 (0 : Fin 1) l) := by
  unfold out0_A_2 kernelRun0_A
  dsimp only
  sl_unfold_words
  simp only [View.readAt_eq_ld]
  rw [rowCnt_body, rowMass_body, rowOk_body]
  refine (read_rows3_2 VO0_2 _ _ _ _ _ _ _ _ l).trans ?_
  unfold k0_pay3
  show (shapeCast S1x128 (View.readCov (Val := Elt Ideal) a3.view _ (Rect.unit (s := S8x128) ![2, 0] ![1, 128] _).toLoadRect) _) (ix2 (0 : Fin 1) l) + _ = _
  have e0 : View.ld (View.read (Elt Ideal) a1.view (h1.unread x0)) (Rect.unit (s := S4096x128) ![0, 0] S4096x128.size inb_S4096x128_S4096x128_0_0) = x0 := by
    rw [h1.read_unread]; exact View.ld_unit_zero hz _ x0
  have e1 : View.ld (View.read (Elt Ideal) a2.view (h2.unread x1)) (Rect.unit (s := S4096x128) ![0, 0] S4096x128.size inb_S4096x128_S4096x128_0_0) = x1 := by
    rw [h2.read_unread]; exact View.ld_unit_zero hz _ x1
  rw [e0, e1]
  refine (congrArg (· + rowOk x0 x1 (ix2 (0 : Fin 1) l))
    ((congrFun (shapeCast_self (s := S1x128) (View.readCov (Val := Elt Ideal) a3.view _ (Rect.unit (s := S8x128) ![2, 0] ![1, 128] _).toLoadRect) _) (ix2 (0 : Fin 1) l)).trans ?_)).trans (zero_add _)
  unfold View.readCov
  rw [View.readAt_apply]
  refine (congrArg (View.read (Elt Ideal) a3.view _) (idx_row 2 (by omega) _ l)).trans ?_
  exact (read_fill_2 a3.view _ _ _ _ _ _ _ l).trans (fill_zero _)

end CaseA

end Cert.KernelIdeal.EceBody

end
-- ==== Proof.LibSumBlocks.lean ====
/-
  Cutting a finite sum into consecutive blocks of equal length, in any additive commutative monoid: a sum over the
  first `n · b` naturals is the sum over `n` blocks of `b` consecutive terms, and the same for a sum over
  `Fin (n · b)` of a function of the position.  What a contraction computed block by block (a reduction axis tiled
  over a grid or a loop) needs in order to meet the whole contraction.
-/
import Mathlib.Algebra.BigOperators.Fin
import Mathlib.Algebra.BigOperators.Intervals

namespace Cert.LibSumBlocks

open scoped BigOperators

/-- A sum over the first `n · b` naturals is the sum over `n` consecutive blocks of `b` terms: term `q` of block `s`
    is the term at position `b · s + q`. -/
theorem sum_range_blocks {M : Type*} [AddCommMonoid M] (g : ℕ → M) (b : ℕ) :
    ∀ n : ℕ, ∑ k ∈ Finset.range (n * b), g k = ∑ s ∈ Finset.range n, ∑ q ∈ Finset.range b, g (b * s + q)
  | 0 => by simp
  | n + 1 => by
    rw [Nat.succ_mul, Finset.sum_range_add, sum_range_blocks g b n, Finset.sum_range_succ, Nat.mul_comm n b]

/-- The same over `Fin N` with `N = n · b`, the blocks' terms indexed by `Fin b`. -/
theorem sum_fin_blocks {M : Type*} [AddCommMonoid M] (g : ℕ → M) (n b N : ℕ) (hN : N = n * b) :
    ∑ k : Fin N, g k.val = ∑ s ∈ Finset.range n, ∑ q : Fin b, g (b * s + q.val) := by
  subst hN
  rw [Fin.sum_univ_eq_sum_range g (n * b), sum_range_blocks g b n]
  exact Finset.sum_congr rfl fun s _ => (Fin.sum_univ_eq_sum_range (fun q => g (b * s + q)) b).symm

end Cert.LibSumBlocks
-- ==== Proof.EceSums.lean ====
/-
  The samples, tiled.

  The N = 2^25 samples are laid out as 64 blocks of 4096 rows of 128 lanes: sample number
  128 * (4096 * t + q) + k is lane k of row q of block t. A total over all the samples is therefore the total
  over the blocks of the totals over a block's rows and lanes — in any additive commutative monoid, here the
  extended reals. Functions of a sample are extended by 0 past the last sample so that they can be read at a
  natural number.
-/
import proofs.«105154_j76132590289249_1_alg».proof.Proof.EceSpec
import proofs.«105154_j76132590289249_1_alg».proof.Proof.LibSumBlocks

noncomputable section

namespace Cert.Ece

open scoped BigOperators

/-- A function of a sample, read at a natural number (0 past the last sample). -/
def onNat (G : Fin NE → EReal) (e : ℕ) : EReal := if h : e < NE then G ⟨e, h⟩ else 0

theorem onNat_of_lt (G : Fin NE → EReal) (e : ℕ) (h : e < NE) : onNat G e = G ⟨e, h⟩ := dif_pos h

/-- Sample 128 * (4096 * t + q) + k exists for t < 64, q < 4096, k < 128. -/
theorem tile_lt {t q k : ℕ} (ht : t < 64) (hq : q < 4096) (hk : k < 128) : 128 * (4096 * t + q) + k < NE := by
  show 128 * (4096 * t + q) + k < 33554432
  omega

/-- A total over all the samples is the total over the 64 blocks of the totals over each block's 4096 rows and
    128 lanes. -/
theorem sum_tiles (G : Fin NE → EReal) :
    ∑ e : Fin NE, G e
      = ∑ t ∈ Finset.range 64, ∑ q : Fin 4096, ∑ k : Fin 128, onNat G (128 * (4096 * t + q.val) + k.val) := by
  have h1 : ∑ e : Fin NE, G e = ∑ e : Fin NE, onNat G e.val :=
    Finset.sum_congr rfl fun e _ => (onNat_of_lt G e.val e.isLt).symm
  rw [h1, Cert.LibSumBlocks.sum_fin_blocks (onNat G) 262144 128 NE (by norm_num),
    ← Fin.sum_univ_eq_sum_range (fun R => ∑ k : Fin 128, onNat G (128 * R + k.val)) 262144,
    Cert.LibSumBlocks.sum_fin_blocks (fun R => ∑ k : Fin 128, onNat G (128 * R + k.val)) 64 4096 262144 (by norm_num)]

/-- The total of the weights w over bin b, block by block. -/
theorem binTotal_tiles (b : BitVec 32) (cf w : Fin NE → EReal) :
    binTotal b cf w
      = ∑ t ∈ Finset.range 64, ∑ q : Fin 4096, ∑ k : Fin 128,
          onNat (fun e => if binOf (cf e) = b then w e else 0) (128 * (4096 * t + q.val) + k.val) :=
  sum_tiles _

end Cert.Ece

end
-- ==== Proof.KernelAccum.lean ====
/-
  The accumulator block over the whole grid, and the three statistics it ends holding.

  After grid point n, entry (r, l) of the accumulator block — r = 0, 1, 2 the kind of statistic, l < 15 the bin — is
  the total over the points 0..n of the point's own total (induction on the point: the first point starts from
  zero, every later one adds to what the point before left). Point t's block of the sample arrays is samples
  128 * (4096 * t + q) + k, so after the last point entry (r, l) is the total over all samples: the statistic of bin l.
  The block is written back once, after the last point, and is the whole result array.
-/
import proofs.«105154_j76132590289249_1_alg».proof.Proof.Gen.KernelIdeal.Frame
import proofs.«105154_j76132590289249_1_alg».proof.Proof.KernelPieces
import proofs.«105154_j76132590289249_1_alg».proof.Proof.EceSums
import Idealize.ShloMosaic.Lib.Pipeline.Value
import Idealize.ShloMosaic.Lib.StableHlo.Run
import Idealize.ShloMosaic.Lib.Tactic

set_option maxRecDepth 16384

noncomputable section

namespace Cert.KernelIdeal.EceBody

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-! ## The running total over the grid points -/

/-- The total of a per-point quantity over the points 0..n. -/
def runTot (pt : Fin cfg0.N → EReal) (n : ℕ) : EReal :=
  ∑ t ∈ Finset.range (n + 1), if h : t < cfg0.N then pt ⟨t, h⟩ else 0

theorem runTot_zero (pt : Fin cfg0.N → EReal) (h : 0 < cfg0.N) : runTot pt 0 = pt ⟨0, h⟩ := by
  unfold runTot
  rw [Finset.sum_range_one, dif_pos h]

theorem runTot_succ (pt : Fin cfg0.N → EReal) (n : ℕ) (h : n + 1 < cfg0.N) :
    runTot pt (n + 1) = runTot pt n + pt ⟨n + 1, h⟩ := by
  unfold runTot
  rw [Finset.sum_range_succ, dif_pos h]

/-- Row 0 of the accumulator block after point n: the running total of the points' rows. -/
theorem acc_row0 (c : Dev nD) (l : Fin 128) : ∀ (n : ℕ) (h : n < cfg0.N),
    outsAt0 (F := Ideal) m c n h (ix2 (0 : Fin 8) l) = runTot (fun t => rowCnt (F := Ideal) (iblk m c 0 t) (ix2 (0 : Fin 1) l)) n
  | 0, h => by
    rw [runTot_zero _ h]
    exact (congrFun (outsAt0_A m c ⟨0, h⟩ rfl) (ix2 (0 : Fin 8) l)).trans
      (out_A_row0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩) l)
  | n + 1, h => by
    have hN : cfg0.N = 64 := N_0
    have hB : ¬(⟨n + 1, h⟩ : Fin cfg0.N).val % 64 = 0 := by dsimp only; omega
    rw [runTot_succ _ n h]
    refine (congrFun (outsAt0_B m c ⟨n + 1, h⟩ hB) (ix2 (0 : Fin 8) l)).trans ?_
    refine (out_B_row0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩)
      (outsAt0 m c n (Nat.lt_of_succ_lt h)) l).trans ?_
    exact congrArg (· + rowCnt (F := Ideal) (iblk m c 0 ⟨n + 1, h⟩) (ix2 (0 : Fin 1) l)) (acc_row0 c l n (Nat.lt_of_succ_lt h))

/-- Row 1 of the accumulator block after point n: the running total of the points' rows. -/
theorem acc_row1 (c : Dev nD) (l : Fin 128) : ∀ (n : ℕ) (h : n < cfg0.N),
    outsAt0 (F := Ideal) m c n h (ix2 (1 : Fin 8) l) = runTot (fun t => rowMass (F := Ideal) (iblk m c 0 t) (ix2 (0 : Fin 1) l)) n
  | 0, h => by
    rw [runTot_zero _ h]
    exact (congrFun (outsAt0_A m c ⟨0, h⟩ rfl) (ix2 (1 : Fin 8) l)).trans
      (out_A_row1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩) l)
  | n + 1, h => by
    have hN : cfg0.N = 64 := N_0
    have hB : ¬(⟨n + 1, h⟩ : Fin cfg0.N).val % 64 = 0 := by dsimp only; omega
    rw [runTot_succ _ n h]
    refine (congrFun (outsAt0_B m c ⟨n + 1, h⟩ hB) (ix2 (1 : Fin 8) l)).trans ?_
    refine (out_B_row1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩)
      (outsAt0 m c n (Nat.lt_of_succ_lt h)) l).trans ?_
    exact congrArg (· + rowMass (F := Ideal) (iblk m c 0 ⟨n + 1, h⟩) (ix2 (0 : Fin 1) l)) (acc_row1 c l n (Nat.lt_of_succ_lt h))

/-- Row 2 of the accumulator block after point n: the running total of the points' rows. -/
theorem acc_row2 (c : Dev nD) (l : Fin 128) : ∀ (n : ℕ) (h : n < cfg0.N),
    outsAt0 (F := Ideal) m c n h (ix2 (2 : Fin 8) l) = runTot (fun t => rowOk (F := Ideal) (iblk m c 0 t) (iblk m c 1 t) (ix2 (0 : Fin 1) l)) n
  | 0, h => by
    rw [runTot_zero _ h]
    exact (congrFun (outsAt0_A m c ⟨0, h⟩ rfl) (ix2 (2 : Fin 8) l)).trans
      (out_A_row2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩) l)
  | n + 1, h => by
    have hN : cfg0.N = 64 := N_0
    have hB : ¬(⟨n + 1, h⟩ : Fin cfg0.N).val % 64 = 0 := by dsimp only; omega
    rw [runTot_succ _ n h]
    refine (congrFun (outsAt0_B m c ⟨n + 1, h⟩ hB) (ix2 (2 : Fin 8) l)).trans ?_
    refine (out_B_row2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩)
      (outsAt0 m c n (Nat.lt_of_succ_lt h)) l).trans ?_
    exact congrArg (· + rowOk (F := Ideal) (iblk m c 0 ⟨n + 1, h⟩) (iblk m c 1 ⟨n + 1, h⟩) (ix2 (0 : Fin 1) l)) (acc_row2 c l n (Nat.lt_of_succ_lt h))

/-! ## A point's blocks are its samples -/

/-- The sample arrays as the kernel's windows find them: the [N] arrays cast to [262144, 128]. -/
theorem V_conf (c : Dev nD) : (V m c main_v0 : S262144x128.Idx → EReal)
    = shapeCast S262144x128 (m ((c : Thread nD τ).loc main_arg0)) shapeCasts_S33554432_S262144x128 := by
  show StableHlo.after hostOps0 (fun b => m (c, b)) (Proc.devRef .tc main_v0) = _
  after_results
  rfl

theorem V_tgt (c : Dev nD) : (V m c main_v1 : S262144x128.Idx → BitVec 32)
    = shapeCast S262144x128 (m ((c : Thread nD τ).loc main_arg1)) shapeCasts_S33554432_S262144x128 := by
  show StableHlo.after hostOps0 (fun b => m (c, b)) (Proc.devRef .tc main_v1) = _
  after_results
  rfl

/-- Where the windows' blocks sit: block t of either sample array starts at row 4096 t, lane 0. -/
theorem win_index (t : Fin cfg0.N) :
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0) t

/-- An [N] array cast to [262144, 128], read at (R, k): the array at 128 R + k. -/
theorem cast_rows_apply {α : Type} (x : S33554432.Idx → α) (R : Fin 262144) (k : Fin 128) (e : Fin 33554432)
    (he : e.val = 128 * R.val + k.val) :
    shapeCast S262144x128 x shapeCasts_S33554432_S262144x128 (ix2 R k) = x (ix1 e) :=
  shapeCast_apply x _ _ _ (by
    rw [Shape.rowMajor_val_two, Shape.rowMajor_val_one]
    show e.val = R.val * 128 + k.val
    omega)

/-- Entry (q, k) of point t's confidence block is sample 128 (4096 t + q) + k, -/
theorem iblk0_apply (c : Dev nD) (t : Fin cfg0.N) (q : Fin 4096) (k : Fin 128) (e : Fin 33554432)
    (he : e.val = 128 * (4096 * t.val + q.val) + k.val) :
    (iblk m c 0 t : Vec Ideal S4096x128 .f32) (ix2 q k) = m ((c : Thread nD τ).loc main_arg0) (ix1 e) := by
  have hi := win_index t
  have hN : t.val < 64 := lt_of_lt_of_eq t.isLt (show cfg0.N = 64 from N_0)
  have hR : 4096 * t.val + q.val < 262144 := by have := q.isLt; omega
  refine Eq.trans ?_ ((congrFun (V_conf m c) (ix2 (⟨4096 * t.val + q.val, hR⟩ : Fin 262144) k)).trans
    (cast_rows_apply _ ⟨4096 * t.val + q.val, hR⟩ k e he))
  unfold iblk
  rw [View.read_apply]
  show V m c main_v0 _ = V m c main_v0 _
  congr 1
  funext a
  apply Fin.ext
  match a with
  | ⟨0, _⟩ => show win0_0.index t 0 * 4096 + 1 * q.val = 4096 * t.val + q.val; rw [hi.1]; omega
  | ⟨1, _⟩ => show win0_0.index t 1 * 128 + 1 * k.val = k.val; rw [hi.2.1]; omega

/-- and of its target block likewise. -/
theorem iblk1_apply (c : Dev nD) (t : Fin cfg0.N) (q : Fin 4096) (k : Fin 128) (e : Fin 33554432)
    (he : e.val = 128 * (4096 * t.val + q.val) + k.val) :
    (iblk m c 1 t : Vec Ideal S4096x128 .i32) (ix2 q k) = m ((c : Thread nD τ).loc main_arg1) (ix1 e) := by
  have hi := win_index t
  have hN : t.val < 64 := lt_of_lt_of_eq t.isLt (show cfg0.N = 64 from N_0)
  have hR : 4096 * t.val + q.val < 262144 := by have := q.isLt; omega
  refine Eq.trans ?_ ((congrFun (V_tgt m c) (ix2 (⟨4096 * t.val + q.val, hR⟩ : Fin 262144) k)).trans
    (cast_rows_apply _ ⟨4096 * t.val + q.val, hR⟩ k e he))
  unfold iblk
  rw [View.read_apply]
  show V m c main_v1 _ = V m c main_v1 _
  congr 1
  funext a
  apply Fin.ext
  match a with
  | ⟨0, _⟩ => show win0_1.index t 0 * 4096 + 1 * q.val = 4096 * t.val + q.val; rw [hi.2.2.1]; omega
  | ⟨1, _⟩ => show win0_1.index t 1 * 128 + 1 * k.val = k.val; rw [hi.2.2.2]; omega

/-! ## After the last point: the three statistics -/

/-- The last grid point. -/
theorem h63 : 63 < cfg0.N := by rw [show cfg0.N = 64 from N_0]; decide

/-- Entry (0, l), l < 15, of the accumulator block after the last point: the number of samples in bin l. -/
theorem stat_cnt (c : Dev nD) (l : Fin 128) (hl : l.val < 15) :
    outsAt0 (F := Ideal) m c 63 h63 (ix2 (0 : Fin 8) l)
      = Cert.Ece.binTotal (BitVec.ofNat 32 l.val) (fun e => m ((c : Thread nD τ).loc main_arg0) (ix1 e)) (fun _ => 1) := by
  rw [acc_row0 m c l 63 h63, Cert.Ece.binTotal_tiles]
  unfold runTot
  show ∑ t ∈ Finset.range 64, _ = _
  refine Finset.sum_congr rfl fun t ht => ?_
  have ht' : t < 64 := Finset.mem_range.mp ht
  have htN : t < cfg0.N := lt_of_lt_of_eq ht' N_0.symm
  rw [dif_pos htN]
  refine (rowCnt_apply (iblk m c 0 ⟨t, htN⟩) l hl).trans ?_
  refine Finset.sum_congr rfl fun q _ => Finset.sum_congr rfl fun k _ => ?_
  rw [Cert.Ece.onNat_of_lt _ _ (Cert.Ece.tile_lt ht' q.isLt k.isLt),
    iblk0_apply m c ⟨t, htN⟩ q k ⟨_, Cert.Ece.tile_lt ht' q.isLt k.isLt⟩ rfl]

/-- Entry (1, l), l < 15, of the accumulator block after the last point: the confidence mass of bin l. -/
theorem stat_mass (c : Dev nD) (l : Fin 128) (hl : l.val < 15) :
    outsAt0 (F := Ideal) m c 63 h63 (ix2 (1 : Fin 8) l)
      = Cert.Ece.binTotal (BitVec.ofNat 32 l.val) (fun e => m ((c : Thread nD τ).loc main_arg0) (ix1 e)) (fun e => m ((c : Thread nD τ).loc main_arg0) (ix1 e)) := by
  rw [acc_row1 m c l 63 h63, Cert.Ece.binTotal_tiles]
  unfold runTot
  show ∑ t ∈ Finset.range 64, _ = _
  refine Finset.sum_congr rfl fun t ht => ?_
  have ht' : t < 64 := Finset.mem_range.mp ht
  have htN : t < cfg0.N := lt_of_lt_of_eq ht' N_0.symm
  rw [dif_pos htN]
  refine (rowMass_apply (iblk m c 0 ⟨t, htN⟩) l hl).trans ?_
  refine Finset.sum_congr rfl fun q _ => Finset.sum_congr rfl fun k _ => ?_
  rw [Cert.Ece.onNat_of_lt _ _ (Cert.Ece.tile_lt ht' q.isLt k.isLt),
    iblk0_apply m c ⟨t, htN⟩ q k ⟨_, Cert.Ece.tile_lt ht' q.isLt k.isLt⟩ rfl]

/-- Entry (2, l), l < 15, of the accumulator block after the last point: the number of correct predictions in bin l. -/
theorem stat_ok (c : Dev nD) (l : Fin 128) (hl : l.val < 15) :
    outsAt0 (F := Ideal) m c 63 h63 (ix2 (2 : Fin 8) l)
      = Cert.Ece.binTotal (BitVec.ofNat 32 l.val) (fun e => m ((c : Thread nD τ).loc main_arg0) (ix1 e)) (fun e => Cert.Ece.hitOf (m ((c : Thread nD τ).loc main_arg0) (ix1 e)) (m ((c : Thread nD τ).loc main_arg1) (ix1 e))) := by
  rw [acc_row2 m c l 63 h63, Cert.Ece.binTotal_tiles]
  unfold runTot
  show ∑ t ∈ Finset.range 64, _ = _
  refine Finset.sum_congr rfl fun t ht => ?_
  have ht' : t < 64 := Finset.mem_range.mp ht
  have htN : t < cfg0.N := lt_of_lt_of_eq ht' N_0.symm
  rw [dif_pos htN]
  refine (rowOk_apply (iblk m c 0 ⟨t, htN⟩) (iblk m c 1 ⟨t, htN⟩) l hl).trans ?_
  refine Finset.sum_congr rfl fun q _ => Finset.sum_congr rfl fun k _ => ?_
  rw [Cert.Ece.onNat_of_lt _ _ (Cert.Ece.tile_lt ht' q.isLt k.isLt),
    iblk0_apply m c ⟨t, htN⟩ q k ⟨_, Cert.Ece.tile_lt ht' q.isLt k.isLt⟩ rfl,
    iblk1_apply m c ⟨t, htN⟩ q k ⟨_, Cert.Ece.tile_lt ht' q.isLt k.isLt⟩ rfl]

end Cert.KernelIdeal.EceBody

end
-- ==== Proof.KernelRun.lean ====
/-
  The kernel's run, read: what its result holds.

  The accumulator block is written back once, after the last grid point, and is the whole [8, 128] result array of
  the kernel. The lines after the kernel take rows 0, 1, 2 of its first fifteen lanes — the three statistics per bin —
  and apply the closing arithmetic. So the program's result is the expected calibration error of the samples.
-/
import proofs.«105154_j76132590289249_1_alg».proof.Proof.Gen.KernelIdeal.Frame
import proofs.«105154_j76132590289249_1_alg».proof.Proof.KernelAccum
import proofs.«105154_j76132590289249_1_alg».proof.Proof.EceSpec
import Idealize.ShloMosaic.Lib.Pipeline.Value
import Idealize.ShloMosaic.Lib.StableHlo.Run
import Idealize.ShloMosaic.Lib.Tactic

set_option maxRecDepth 16384

noncomputable section

namespace Cert.KernelIdeal.EceBody

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The last grid point. -/
abbrev lastPt : Fin cfg0.N := ⟨63, h63⟩

/-- The accumulator block after the last point, as contents of the kernel's result array. -/
abbrev finalBlk (c : Dev nD) : Buf (Elt Ideal) ((c : Thread nD τ).loc main_v2) := outsAt0 (F := Ideal) m c 63 h63

/-- The one write-back, after the last point, writes the accumulator block: block (0, 0) of the [8, 128] array is the array. -/
theorem flushed_eq (c : Dev nD) (t : Fin cfg0.N) (hf : (cfg0.win 2).flush t = true) :
    (dats m 0 c).flushed 2 t = ((cfg0.win 2).blk t).view.read (Elt Ideal) (finalBlk m c) := by
  have hN : cfg0.N = 64 := N_0
  have h3 : t.val = 63 := by have := (flush0_2 t).mp hf; have := t.isLt; omega
  obtain rfl : t = lastPt := Fin.ext h3
  show (cfg0.win 2).cut (grid0.coords lastPt) ((dats m 0 c).after 2 lastPt) = _
  rw [after0_2]
  have hz' : (fun a => win0_2.index lastPt a * main_v2.ty.shape.size a) = fun _ => 0 := funext fun a => by fin_cases a <;> decide
  exact (Memref.read_access_unit_zero (Elt Ideal) main_v2 hz' (fun a => by rw [congrFun hz' a]; simp) (finalBlk m c)).symm

/-- So the kernel's result array ends holding the accumulator block after the last point. -/
theorem final_o (c : Dev nD) : (dats m 0 c).arrAt 2 cfg0.N = finalBlk m c :=
  (dats m 0 c).arrAt_eq_of_cover 2 (finalBlk m c) (flushed_eq m c) fun i =>
    ⟨lastPt, (flush0_2 lastPt).mpr rfl, by
      show i ∈ ((View.whole main_v2).slice (win0_2.rect lastPt)).set
      rw [View.set_slice_whole, Rect.mem_set_unit]
      intro a
      have h0 : (i 0 : Nat) < 8 := (i 0).isLt
      have h1 : (i 1 : Nat) < 128 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 8 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 128 from by decide +kernel]; omega⟩

/-! ## The lines after the kernel -/

attribute [local irreducible] Host.reduceAdd in
set_option maxHeartbeats 8000000 in
/-- The program's result: the closing arithmetic of rows 0, 1, 2 of the result array's first fifteen lanes. -/
theorem tail_eq (c : Dev nD) :
    Pipeline.afterTail₀ cfgs (dats m) 0 (V0 m) [hostOps1, hostOps1_1, hostOps1_2] c main_v22
      = Cert.Ece.tail Cert.KernelIdeal.Gen.bcast_S_S15 Cert.KernelIdeal.Gen.reducesTo_S15_S_d0 Cert.KernelIdeal.Gen.h_S_ Cert.KernelIdeal.Gen.shapeCasts_S_S1
          (shapeCast S15 (extractStridedSlice S1x15 ![0, 0] (finalBlk m c) Cert.KernelIdeal.Gen.slices_S8x128_S1x15_0_0) Cert.KernelIdeal.Gen.shapeCasts_S1x15_S15)
          (shapeCast S15 (extractStridedSlice S1x15 ![1, 0] (finalBlk m c) Cert.KernelIdeal.Gen.slices_S8x128_S1x15_1_0) Cert.KernelIdeal.Gen.shapeCasts_S1x15_S15)
          (shapeCast S15 (extractStridedSlice S1x15 ![2, 0] (finalBlk m c) Cert.KernelIdeal.Gen.slices_S8x128_S1x15_2_0) Cert.KernelIdeal.Gen.shapeCasts_S1x15_S15) := by
  have hA : Pipeline.withArrays (cfgs 0).spec c (V0 m c) (fun w => (dats m 0 c).arrAt w (cfgs 0).N) (Proc.devRef .tc main_v2)
      = finalBlk m c :=
    (Pipeline.withArrays_arr spec0 launch0.win.arr_inj c (V0 m c) (fun w => (dats m 0 c).arrAt w (cfgs 0).N) 2).trans (final_o m c)
  unfold Pipeline.afterTail₀
  simp only [hostOps1, hostOps1_1, hostOps1_2, List.flatten_cons, List.flatten_nil, List.append_nil, List.cons_append,
    List.nil_append]
  after_results_simp
  rw [hA]
  rfl

/-- Row 0's first fifteen lanes are the counts of the fifteen bins. -/
theorem row0_stat (c : Dev nD) :
    (shapeCast S15 (extractStridedSlice S1x15 ![0, 0] (finalBlk m c) Cert.KernelIdeal.Gen.slices_S8x128_S1x15_0_0) Cert.KernelIdeal.Gen.shapeCasts_S1x15_S15) = Cert.Ece.stat (m ((c : Thread nD τ).loc main_arg0)) (fun _ => 1) := by
  funext j
  obtain ⟨b, rfl⟩ : ∃ b : Fin 15, j = ix1 b := ⟨j 0, eq_ix1 j⟩
  have hb : b.val < 128 := by have := b.isLt; omega
  refine (shapeCast_apply _ _ (ix1 b) (ix2 (0 : Fin 1) b) (by
    rw [Shape.rowMajor_val_two, Shape.rowMajor_val_one]
    show 0 * 15 + b.val = b.val
    omega)).trans ?_
  refine Eq.trans ?_ (stat_cnt m c ⟨b.val, hb⟩ b.isLt)
  unfold extractStridedSlice
  show finalBlk m c _ = finalBlk m c _
  congr 1
  funext a
  apply Fin.ext
  match a with
  | ⟨0, _⟩ => rfl
  | ⟨1, _⟩ => show 0 + b.val = b.val; omega

/-- Row 1's first fifteen lanes are the confidence masses of the fifteen bins. -/
theorem row1_stat (c : Dev nD) :
    (shapeCast S15 (extractStridedSlice S1x15 ![1, 0] (finalBlk m c) Cert.KernelIdeal.Gen.slices_S8x128_S1x15_1_0) Cert.KernelIdeal.Gen.shapeCasts_S1x15_S15) = Cert.Ece.stat (m ((c : Thread nD τ).loc main_arg0)) (fun e => (m ((c : Thread nD τ).loc main_arg0)) (ix1 e)) := by
  funext j
  obtain ⟨b, rfl⟩ : ∃ b : Fin 15, j = ix1 b := ⟨j 0, eq_ix1 j⟩
  have hb : b.val < 128 := by have := b.isLt; omega
  refine (shapeCast_apply _ _ (ix1 b) (ix2 (0 : Fin 1) b) (by
    rw [Shape.rowMajor_val_two, Shape.rowMajor_val_one]
    show 0 * 15 + b.val = b.val
    omega)).trans ?_
  refine Eq.trans ?_ (stat_mass m c ⟨b.val, hb⟩ b.isLt)
  unfold extractStridedSlice
  show finalBlk m c _ = finalBlk m c _
  congr 1
  funext a
  apply Fin.ext
  match a with
  | ⟨0, _⟩ => rfl
  | ⟨1, _⟩ => show 0 + b.val = b.val; omega

/-- Row 2's first fifteen lanes are the numbers of correct predictions of the fifteen bins. -/
theorem row2_stat (c : Dev nD) :
    (shapeCast S15 (extractStridedSlice S1x15 ![2, 0] (finalBlk m c) Cert.KernelIdeal.Gen.slices_S8x128_S1x15_2_0) Cert.KernelIdeal.Gen.shapeCasts_S1x15_S15) = Cert.Ece.stat (m ((c : Thread nD τ).loc main_arg0)) (fun e => Cert.Ece.hitOf ((m ((c : Thread nD τ).loc main_arg0)) (ix1 e)) ((m ((c : Thread nD τ).loc main_arg1)) (ix1 e))) := by
  funext j
  obtain ⟨b, rfl⟩ : ∃ b : Fin 15, j = ix1 b := ⟨j 0, eq_ix1 j⟩
  have hb : b.val < 128 := by have := b.isLt; omega
  refine (shapeCast_apply _ _ (ix1 b) (ix2 (0 : Fin 1) b) (by
    rw [Shape.rowMajor_val_two, Shape.rowMajor_val_one]
    show 0 * 15 + b.val = b.val
    omega)).trans ?_
  refine Eq.trans ?_ (stat_ok m c ⟨b.val, hb⟩ b.isLt)
  unfold extractStridedSlice
  show finalBlk m c _ = finalBlk m c _
  congr 1
  funext a
  apply Fin.ext
  match a with
  | ⟨0, _⟩ => rfl
  | ⟨1, _⟩ => show 0 + b.val = b.val; omega

/-- The run, read: the result at the expected calibration error of the samples, the sample arrays unchanged. -/
theorem run : θ_run (defs (F := Ideal)) (onTc (τ := τ) (main (F := Ideal))) ⟨m, fun _ => 0, ρ⟩ fun r => ∀ c : Dev nD,
      r.2.mem ((c.tc : Thread nD τ).loc main_v22)
          = Cert.Ece.result Cert.KernelIdeal.Gen.bcast_S_S15 Cert.KernelIdeal.Gen.reducesTo_S15_S_d0 Cert.KernelIdeal.Gen.h_S_ Cert.KernelIdeal.Gen.shapeCasts_S_S1 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans
        ((tail_eq m c).trans (by rw [row0_stat, row1_stat, row2_stat]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.EceBody

end
-- ==== Proof.LibSegmentRows.lean ====
import Idealize.ShloMosaic.PureOps.Ideal
import Idealize.ShloMosaic.Lib.ValueIdx

/-!
# Row gather and row scatter-add, read at an index

A segment (neighbour) aggregation over a graph with `E` edges and `N` nodes, each carrying `C` columns, is two
StableHLO operations over rows. This file reads both at one element, generically in `N`, `E`, `C` and the index
width `w`.

* GATHER. The operand is `[N, C]`, the start indices `[E, 1]`, the result `[E, C]`; a start index names a row.
  `gather_rows_apply`: result element `(e, c)` is the operand's element `(srcRow e, c)`, where `srcRow e` is edge
  `e`'s start index read as a SIGNED integer and CLAMPED into `[0, N - 1]` (a gather clamps every start index so
  that its slice fits; the slice here is one whole row, so the bound is `N - 1`).

* SCATTER-ADD. The operand is `[N, C]`, the scatter indices `[E, 1]`, the updates `[E, C]`. A scatter index is
  read signed and is NOT clamped: an update whose row falls outside `[0, N)` is dropped.
  `scatterRows_resultIdx?_iff`: update element `(e, c)` lands on operand element `(r, c')` iff edge `e`'s index
  equals `r` and `c = c'`.
  `scatterAdd_rows_apply`: over the extended reals, where the accumulation is the exact sum, result element `(r, c)`
  is the operand's element plus `∑ upd (e, c)` over the edges `e` whose index equals `r`.

The two differ at out-of-range indices (clamped on the way in, dropped on the way out), so the statements keep the
two readings separate: `srcRow` for the gather, the bare signed value for the scatter.
-/

noncomputable section

namespace Cert.SegmentRows

open Idealize.ShloMosaic Idealize.ShloMosaic.ValueIdx
open scoped BigOperators

/-- On two axes, axis 1 is not in the one-element list `[0]`. -/
private theorem fin2_one_not_mem_zero : (1 : Fin 2) ∉ [(0 : Fin 2)] := by decide
/-- On two axes, axis 0 is not in the one-element list `[1]`. -/
private theorem fin2_zero_not_mem_one : (0 : Fin 2) ∉ [(1 : Fin 2)] := by decide

/-- Row gather: operand `[N, C]`, start indices `[E, 1]`, result `[E, C]`; each start index names one
    operand row (axis 0, collapsed), the whole row (slice `[1, C]`) is the result's offset axis 1. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- the operand row edge e reads: its start index read signed and clamped into [0, N-1] -/
def srcRow {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, c)`: column `c` of the operand row that edge `e`'s start index names. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRows N E C wf) x idx (ix2 e c) = x (ix2 (srcRow hN idx e) c) := by
  unfold Host.gather
  congr 1
  funext a
  refine Fin.ext ?_
  match a with
  | ⟨0, _⟩ =>
    show (gatherRows N E C wf).start (ix2 e c) idx 0 + (gatherRows N E C wf).batchCoord (ix2 e c) 0
      + (gatherRows N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N E C wf).startIndexMap from List.mem_singleton.mpr rfl)]
    have hsi : (gatherRows N E C wf).siIdx (ix2 e c) ⟨List.idxOf (0 : Fin 2) (gatherRows N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N E C wf).start (ix2 e c) idx 1 + (gatherRows N E C wf).batchCoord (ix2 e c) 1
      + (gatherRows N E C wf).offCoord (ix2 e c) 1 = _
    rw [GatherDims.batchCoord_eq_zero _ _ _ List.not_mem_nil]
    unfold GatherDims.start
    rw [dif_neg (show (1 : Fin 2) ∉ (gatherRows N E C wf).startIndexMap from
      fin2_one_not_mem_zero)]
    simp only [Nat.add_zero, Nat.zero_add]
    rfl

/-- Row scatter: operand `[N, C]`, scatter indices `[E, 1]`, updates `[E, C]`; each scatter index names one
    operand row (axis 0, an inserted window axis), the update's axis 1 is the window over the operand's axis 1. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterCoords
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window starts at the edge's scatter index, read signed (not clamped). -/
theorem scatterRows_start_zero :
    (scatterRows N E C wf).start (ix2 e c) idx 0 = (idx (ix2 e (0 : Fin 1))).toInt := by
  unfold ScatterDims.start
  rw [dif_pos (show (0 : Fin 2) ∈ (scatterRows N E C wf).scatterDimsToOperandDims from List.mem_singleton.mpr rfl)]
  have hsi : (scatterRows N E C wf).siIdx (ix2 e c) ⟨List.idxOf (0 : Fin 2) (scatterRows N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the window starts at `0`. -/
theorem scatterRows_start_one : (scatterRows N E C wf).start (ix2 e c) idx 1 = 0 := by
  unfold ScatterDims.start
  rw [dif_neg (show (1 : Fin 2) ∉ (scatterRows N E C wf).scatterDimsToOperandDims from fin2_one_not_mem_zero)]

/-- The row axis is an inserted window axis: its window coordinate is `0`. -/
theorem scatterRows_window_zero : (scatterRows N E C wf).window (ix2 e c) 0 = 0 := by
  unfold ScatterDims.window
  rw [dif_neg (show (0 : Fin 2) ∉ (scatterRows N E C wf).sKept from fin2_zero_not_mem_one)]

/-- The column axis is the one kept axis: its window coordinate is the update's column. -/
theorem scatterRows_window_one : (scatterRows N E C wf).window (ix2 e c) 1 = c.val := by
  unfold ScatterDims.window
  rw [dif_pos (show (1 : Fin 2) ∈ (scatterRows N E C wf).sKept from List.mem_singleton.mpr rfl)]
  rfl

end ScatterCoords

/-- WHERE AN UPDATE LANDS: update element `(e, c)` lands on operand element `(r, c')` exactly when edge `e`'s
    scatter index, read signed, is the row `r` and the columns agree. (An index outside `[0, N)` lands nowhere:
    no row `r : Fin N` equals it.) -/
theorem scatterRows_resultIdx?_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N) (c' : Fin C) :
    (scatterRows N E C wf).resultIdx? (ix2 e c) idx = some (ix2 r c') ↔
      ((idx (ix2 e (0 : Fin 1))).toInt = (r.val : Int) ∧ c = c') := by
  have hs0 := scatterRows_start_zero wf idx e c
  have hs1 := scatterRows_start_one wf idx e c
  have hw0 := scatterRows_window_zero (N := N) wf e c
  have hw1 := scatterRows_window_one (N := N) wf e c
  unfold ScatterDims.resultIdx?
  constructor
  · intro h
    split at h
    · rename_i hb
      have h' := Option.some.inj h
      have h0 : ((scatterRows N E C wf).start (ix2 e c) idx 0
          + ((scatterRows N E C wf).window (ix2 e c) 0 : Nat)).toNat = r.val :=
        congrArg (fun f : (⟨2, ![N, C]⟩ : Shape).Idx => (f 0).val) h'
      have h1 : ((scatterRows N E C wf).start (ix2 e c) idx 1
          + ((scatterRows N E C wf).window (ix2 e c) 1 : Nat)).toNat = c'.val :=
        congrArg (fun f : (⟨2, ![N, C]⟩ : Shape).Idx => (f 1).val) h'
      have hb0 := (hb 0).1
      rw [hs0, hw0] at h0 hb0
      rw [hs1, hw1] at h1
      exact ⟨by omega, Fin.ext (by omega)⟩
    · exact absurd h (by simp)
  · rintro ⟨ht, rfl⟩
    have hall : ∀ a, 0 ≤ (scatterRows N E C wf).start (ix2 e c) idx a + ((scatterRows N E C wf).window (ix2 e c) a : Nat) ∧
        (scatterRows N E C wf).start (ix2 e c) idx a + ((scatterRows N E C wf).window (ix2 e c) a : Nat)
          < ((⟨2, ![N, C]⟩ : Shape).size a : Nat) := by
      intro a
      match a with
      | ⟨0, _⟩ =>
        show 0 ≤ (scatterRows N E C wf).start (ix2 e c) idx 0 + ((scatterRows N E C wf).window (ix2 e c) 0 : Nat) ∧
          (scatterRows N E C wf).start (ix2 e c) idx 0 + ((scatterRows N E C wf).window (ix2 e c) 0 : Nat) < (N : Int)
        rw [hs0, hw0, ht]
        have := r.isLt
        omega
      | ⟨1, _⟩ =>
        show 0 ≤ (scatterRows N E C wf).start (ix2 e c) idx 1 + ((scatterRows N E C wf).window (ix2 e c) 1 : Nat) ∧
          (scatterRows N E C wf).start (ix2 e c) idx 1 + ((scatterRows N E C wf).window (ix2 e c) 1 : Nat) < (C : Int)
        rw [hs1, hw1]
        have := c.isLt
        omega
    rw [dif_pos hall]
    congr 1
    funext a
    refine Fin.ext ?_
    match a with
    | ⟨0, _⟩ =>
      show ((scatterRows N E C wf).start (ix2 e c) idx 0 + ((scatterRows N E C wf).window (ix2 e c) 0 : Nat)).toNat = r.val
      rw [hs0, hw0, ht]
      omega
    | ⟨1, _⟩ =>
      show ((scatterRows N E C wf).start (ix2 e c) idx 1 + ((scatterRows N E C wf).window (ix2 e c) 1 : Nat)).toNat = c.val
      rw [hs1, hw1]
      omega

/-- THE ROW SCATTER-ADD READ AT `(r, c)`, at the ideal instance: the operand's element plus the exact sum of column
    `c` of the updates of the edges whose scatter index, read signed, is the row `r`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Host.scatterAdd (F := Ideal) (φ := .f32) (scatterRows N E C wf) x idx upd (ix2 r c)
      = x (ix2 r c) + ∑ e ∈ Finset.univ.filter (fun e : Fin E => (idx (ix2 e (0 : Fin 1))).toInt = (r.val : Int)),
          upd (ix2 e c) := by
  show Ideal.hostScatterAdd (scatterRows N E C wf) x idx upd (ix2 r c) = _
  unfold Ideal.hostScatterAdd
  congr 1
  -- the updates that land on `(r, c)` are the `(e, c)` with `e`'s index the row `r`: re-index by `e`
  refine Finset.sum_nbij' (fun j => (j 0 : Fin E)) (fun e => ix2 e c) ?_ ?_ ?_ ?_ ?_
  · intro j hj
    obtain ⟨e, c0, rfl⟩ : ∃ e c0, j = ix2 e c0 := ⟨j 0, j 1, eq_ix2 j⟩
    have hj' := (Finset.mem_filter.mp hj).2
    exact Finset.mem_filter.mpr ⟨Finset.mem_univ _, ((scatterRows_resultIdx?_iff wf idx e c0 r c).mp hj').1⟩
  · intro e he
    have he' := (Finset.mem_filter.mp he).2
    exact Finset.mem_filter.mpr ⟨Finset.mem_univ _, (scatterRows_resultIdx?_iff wf idx e c r c).mpr ⟨he', rfl⟩⟩
  · intro j hj
    obtain ⟨e, c0, rfl⟩ : ∃ e c0, j = ix2 e c0 := ⟨j 0, j 1, eq_ix2 j⟩
    have hj' := (Finset.mem_filter.mp hj).2
    have h2 : c0 = c := ((scatterRows_resultIdx?_iff wf idx e c0 r c).mp hj').2
    subst h2
    rfl
  · intro e _
    rfl
  · intro j hj
    obtain ⟨e, c0, rfl⟩ : ∃ e c0, j = ix2 e c0 := ⟨j 0, j 1, eq_ix2 j⟩
    have hj' := (Finset.mem_filter.mp hj).2
    have h2 : c0 = c := ((scatterRows_resultIdx?_iff wf idx e c0 r c).mp hj').2
    subst h2
    rfl

end Cert.SegmentRows

end
-- ==== Proof.LibEdgeOrder.lean ====
import Idealize.ShloMosaic.Lib.SortFacts
import Idealize.ShloMosaic.Lib.ValueIdx
import Idealize.ShloMosaic.PureOps.Ideal
import proofs.«105154_j76132590289249_1_alg».proof.Proof.LibSegmentRows

/-!
# Re-ordering the edges of a graph does not change a segment sum

A graph with E edges carries, per edge, a source and a destination node (N nodes, C columns of features per node).
A segment sum scatter-adds one value, or one row, per edge at the edge's destination. On the extended reals a
scatter-add is an exact finite sum, so it does not depend on the order of the edges: reading the edge tables through
any bijection σ of the edges, for instance the stable argsort of the destinations, gives the same result.
Everything here is generic in the sizes N, E, C and in the index width w.

Rank-1 indices.
* ofFin_eq_ix1: the two ways of writing the rank-1 index at coordinate k agree.

The two-operand stable sort of rank-1 tables x, y along their one axis (an argsort when y lists the positions).
* sortPerm cmp x y : Fin n → Fin n is the self-map of the positions through which the sort reads both tables:
  sorted position k holds the elements of position sortPerm cmp x y k. sortPerm_bijective: it is a bijection.
* sort2_rank1_snd: the second sorted table at position j is y at position sortPerm cmp x y (j 0).
* argsort_rank1: when y is the table of positions, the second sorted table at j is the number
  sortPerm cmp x y (j 0) written as a word.
From there on the sorting self-map is used only through these facts.

Layouts.
* bcast_col_apply: a vector [E] broadcast along axis 0 of a column [E, 1] reads, at (e, 0), the vector's entry e.

The rank-1 gather: operand [N], start indices [E, 1], result [E].
* gatherVec N E wf is its dimension numbers. gather_vec_apply: result element e is the operand at edge e's start
  index, read as a signed integer and clamped into [0, N - 1].

The rank-1 scatter-add: operand [N], scatter indices [E, 1], updates [E].
* scatterVec N E wf is its dimension numbers. scatterVec_start_zero, scatterVec_window_zero: the window of update e
  starts at e's scatter index read signed (not clamped) and has no extent.
* scatterVec_resultIdx?_iff: update e lands on operand element r exactly when e's scatter index, read signed, equals
  r; an index outside [0, N) lands nowhere.
* scatterAdd_vec_apply: over the extended reals result element r is the operand's element plus the exact sum of the
  updates of the edges whose scatter index is r.

Sums and words.
* sum_filter_comp_bijective: for a bijection σ, the sum of G (σ e) over the e with P (σ e) is the sum of G e over
  the e with P e.
* toInt_ofNat32: a natural below 2^31, as a 32-bit word, reads signed as itself.
* norm_of_nonneg: the index normalization (v + K if v < 0, else v) leaves a word that reads signed as a non-negative
  integer unchanged.

Invariance under a bijection σ of the edges.
* scatterAdd_vec_perm: if the scatter indices and the updates of one rank-1 scatter-add are those of another read
  through σ (entry e of the one is entry σ e of the other), the two results are equal.
* gather_rows_perm: if the start indices of one row gather (operand [N, C], start indices [E, 1], result [E, C]) are
  those of another read through σ, then its row e is the other's row σ e.
* scatterAdd_rows_perm: the statement of scatterAdd_vec_perm for the row scatter-add (operand [N, C], scatter
  indices [E, 1], updates [E, C]).
-/

noncomputable section

namespace Cert.EdgeOrderLib

open Idealize.ShloMosaic Idealize.ShloMosaic.ValueIdx
open scoped BigOperators

/-! ## Rank-1 indices -/

/-- The two ways of writing the rank-1 index at coordinate k agree. -/
theorem ofFin_eq_ix1 {n : Nat} (k : Fin n) : Shape.Idx.ofFin k = ix1 k := by
  funext a
  obtain rfl : a = 0 := Subsingleton.elim _ _
  exact Fin.ext rfl

/-! ## The two-operand stable sort of a rank-1 table -/

/-- The self-map of the positions through which a two-operand stable sort of rank-1 tables x, y reads both:
    sorted position k holds the elements of position sortPerm cmp x y k. -/
def sortPerm {n : Nat} {α β : Type} (cmp : α × β → α × β → BitVec 1)
    (x : (⟨1, ![n]⟩ : Shape).Idx → α) (y : (⟨1, ![n]⟩ : Shape).Idx → β) : Fin n → Fin n :=
  sortedFrom (fun k k' => cmp (x (Shape.Idx.ofFin k), y (Shape.Idx.ofFin k))
    (x (Shape.Idx.ofFin k'), y (Shape.Idx.ofFin k')) == 1#1)

theorem sortPerm_bijective {n : Nat} {α β : Type} (cmp : α × β → α × β → BitVec 1)
    (x : (⟨1, ![n]⟩ : Shape).Idx → α) (y : (⟨1, ![n]⟩ : Shape).Idx → β) :
    Function.Bijective (sortPerm cmp x y) :=
  ⟨sortedFrom_injective _, sortedFrom_surjective _⟩

/-- The second result of a two-operand stable sort of rank-1 tables, read at an index. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortPerm cmp x y (j 0))) := by
  unfold Host.sort2 sortPerm
  simp

/-- An argsort: the second operand is the table of positions, so the sorted second operand is the sorting
    self-map itself, as words. -/
theorem argsort_rank1 {n w : Nat} {α : Type} (cmp : α × BitVec w → α × BitVec w → BitVec 1)
    (x : (⟨1, ![n]⟩ : Shape).Idx → α) (j : (⟨1, ![n]⟩ : Shape).Idx) :
    (Host.sort2 ⟨1, ![n]⟩ 0 cmp x (iotaInDim ⟨1, ![n]⟩ w 0)).2 j
      = BitVec.ofNat w (sortPerm cmp x (iotaInDim ⟨1, ![n]⟩ w 0) (j 0)).val := by
  rw [sort2_rank1_snd]
  rfl

-- from here on the sorting self-map is used only through the three facts above
attribute [irreducible] sortPerm

/-! ## A vector broadcast to a column -/

/-- Broadcasting a vector [E] along axis 0 of a column [E, 1]: row e of the column is element e of the vector. -/
theorem bcast_col_apply {α : Type} {E : Nat}
    (h : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ (![0] : Fin 1 → Fin 2) h v (ix2 e (0 : Fin 1)) = v (ix1 e) := by
  unfold broadcastInDim
  congr 1
  funext a
  obtain rfl : a = 0 := Subsingleton.elim _ _
  refine Fin.ext ?_
  split
  · rename_i h1
    have h1' : E = 1 := h1
    have := e.isLt
    show 0 = e.val
    omega
  · rfl

/-! ## The rank-1 gather -/

/-- Gather of single elements: operand [N], start indices [E, 1], result [E]; each start index names one
    operand element (axis 0, collapsed). -/
abbrev gatherVec (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE RANK-1 GATHER READ AT e: the operand at edge e's start index, read signed and clamped into [0, N-1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gatherVec N E wf).start (ix1 e) idx 0 + (gatherVec N E wf).batchCoord (ix1 e) 0
    + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The rank-1 scatter-add -/

/-- Scatter of single elements: operand [N], scatter indices [E, 1], updates [E]; each scatter index names one
    operand element (axis 0, an inserted window axis); the updates have no window axis. -/
abbrev scatterVec (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterVecCoords
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's scatter index, read signed (not clamped). -/
theorem scatterVec_start_zero :
    (scatterVec N E wf).start (ix1 e) idx 0 = (idx (ix2 e (0 : Fin 1))).toInt := by
  unfold ScatterDims.start
  rw [dif_pos (show (0 : Fin 1) ∈ (scatterVec N E wf).scatterDimsToOperandDims from List.mem_singleton.mpr rfl)]
  have hsi : (scatterVec N E wf).siIdx (ix1 e) ⟨List.idxOf (0 : Fin 1) (scatterVec N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: its window coordinate is 0. -/
theorem scatterVec_window_zero : (scatterVec N E wf).window (ix1 e) 0 = 0 := by
  unfold ScatterDims.window
  rw [dif_neg (show (0 : Fin 1) ∉ (scatterVec N E wf).sKept from List.not_mem_nil)]

end ScatterVecCoords

/-- WHERE AN UPDATE LANDS: update e lands on operand element r exactly when edge e's scatter index, read signed,
    is r. (An index outside [0, N) lands nowhere.) -/
theorem scatterVec_resultIdx?_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (scatterVec N E wf).resultIdx? (ix1 e) idx = some (ix1 r) ↔
      (idx (ix2 e (0 : Fin 1))).toInt = (r.val : Int) := by
  have hs0 := scatterVec_start_zero wf idx e
  have hw0 := scatterVec_window_zero (N := N) wf e
  unfold ScatterDims.resultIdx?
  constructor
  · intro h
    split at h
    · rename_i hb
      have h' := Option.some.inj h
      have h0 : ((scatterVec N E wf).start (ix1 e) idx 0
          + ((scatterVec N E wf).window (ix1 e) 0 : Nat)).toNat = r.val :=
        congrArg (fun f : (⟨1, ![N]⟩ : Shape).Idx => (f 0).val) h'
      have hb0 := (hb 0).1
      rw [hs0, hw0] at h0 hb0
      omega
    · exact absurd h (by simp)
  · intro ht
    have hall : ∀ a, 0 ≤ (scatterVec N E wf).start (ix1 e) idx a + ((scatterVec N E wf).window (ix1 e) a : Nat) ∧
        (scatterVec N E wf).start (ix1 e) idx a + ((scatterVec N E wf).window (ix1 e) a : Nat)
          < ((⟨1, ![N]⟩ : Shape).size a : Nat) := by
      intro a
      obtain rfl : a = 0 := Subsingleton.elim _ _
      show 0 ≤ (scatterVec N E wf).start (ix1 e) idx 0 + ((scatterVec N E wf).window (ix1 e) 0 : Nat) ∧
        (scatterVec N E wf).start (ix1 e) idx 0 + ((scatterVec N E wf).window (ix1 e) 0 : Nat) < (N : Int)
      rw [hs0, hw0, ht]
      have := r.isLt
      omega
    rw [dif_pos hall]
    congr 1
    funext a
    obtain rfl : a = 0 := Subsingleton.elim _ _
    refine Fin.ext ?_
    show ((scatterVec N E wf).start (ix1 e) idx 0 + ((scatterVec N E wf).window (ix1 e) 0 : Nat)).toNat = r.val
    rw [hs0, hw0, ht]
    omega

/-- THE RANK-1 SCATTER-ADD READ AT r, at the ideal instance: the operand's element plus the exact sum of the
    updates of the edges whose scatter index, read signed, is r. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Host.scatterAdd (F := Ideal) (φ := .f32) (scatterVec N E wf) x idx upd (ix1 r)
      = x (ix1 r) + ∑ e ∈ Finset.univ.filter (fun e : Fin E => (idx (ix2 e (0 : Fin 1))).toInt = (r.val : Int)),
          upd (ix1 e) := by
  show Ideal.hostScatterAdd (scatterVec N E wf) x idx upd (ix1 r) = _
  unfold Ideal.hostScatterAdd
  congr 1
  refine Finset.sum_nbij' (fun j => (j 0 : Fin E)) (fun e => ix1 e) ?_ ?_ ?_ ?_ ?_
  · intro j hj
    obtain ⟨e, rfl⟩ : ∃ e, j = ix1 e := ⟨j 0, eq_ix1 j⟩
    have hj' := (Finset.mem_filter.mp hj).2
    exact Finset.mem_filter.mpr ⟨Finset.mem_univ _, (scatterVec_resultIdx?_iff wf idx e r).mp hj'⟩
  · intro e he
    have he' := (Finset.mem_filter.mp he).2
    exact Finset.mem_filter.mpr ⟨Finset.mem_univ _, (scatterVec_resultIdx?_iff wf idx e r).mpr he'⟩
  · intro j _
    exact (eq_ix1 j).symm
  · intro e _
    rfl
  · intro j _
    exact congrArg upd (eq_ix1 j)

/-! ## A filtered sum along a bijection -/

/-- Re-indexing a filtered finite sum along a bijection σ of the index set. -/
theorem sum_filter_comp_bijective {E : Nat} {M : Type} [AddCommMonoid M] (σ : Fin E → Fin E)
    (hσ : Function.Bijective σ) (P : Fin E → Prop) [DecidablePred P] (G : Fin E → M) :
    ∑ e ∈ Finset.univ.filter (fun e => P (σ e)), G (σ e) = ∑ e ∈ Finset.univ.filter P, G e := by
  rw [Finset.sum_filter, Finset.sum_filter]
  exact Equiv.sum_comp (Equiv.ofBijective σ hσ) (fun e => if P e then G e else 0)

/-! ## Words: a small natural as a 32-bit word is itself when read signed -/

/-- A natural below 2^31, as a 32-bit word, reads signed as itself. -/
theorem toInt_ofNat32 {m : Nat} (hm : m < 2147483648) : (BitVec.ofNat 32 m).toInt = (m : Int) := by
  rw [BitVec.toInt_eq_toNat_cond, BitVec.toNat_ofNat]
  have : m % 2 ^ 32 = m := Nat.mod_eq_of_lt (by omega)
  rw [this]
  split <;> omega

/-- The index normalization (a negative index counts from the end: add the length K) leaves a word that reads
    signed as a non-negative integer unchanged. -/
theorem norm_of_nonneg (K v : BitVec 32) (hv : 0 ≤ v.toInt) :
    Scalar.select (IntOp.cmpi .slt v 0#32) (IntOp.addi v K) v = v := by
  have h0 : IntOp.cmpi .slt v 0#32 = 0#1 := by
    unfold IntOp.cmpi
    have : v.slt 0#32 = false := by
      rw [BitVec.slt_eq_decide]
      simp only [BitVec.toInt_zero, decide_eq_false_iff_not, not_lt]
      exact hv
    simp [this]
  rw [h0]
  exact select_zero _ _

/-! ## Invariance of the segment sums under a bijection of the edges -/

open Cert.SegmentRows

/-- THE RANK-1 SEGMENT SUM DOES NOT DEPEND ON THE ORDER OF THE EDGES: if the scatter indices and the updates of one
    scatter-add are those of another read through a bijection σ of the edges, the two results are equal. -/
theorem scatterAdd_vec_perm {N E w : Nat}
    (wf : ScatterDims.WF ⟨1, ![N]⟩ ⟨2, ![E, 1]⟩ ⟨1, ![E]⟩ [] [0] [0] 1)
    (σ : Fin E → Fin E) (hσ : Function.Bijective σ)
    (x : (⟨1, ![N]⟩ : Shape).Idx → EReal) (idx idx' : IVec ⟨2, ![E, 1]⟩ w)
    (upd upd' : (⟨1, ![E]⟩ : Shape).Idx → EReal)
    (hidx : ∀ e, idx' (ix2 e (0 : Fin 1)) = idx (ix2 (σ e) (0 : Fin 1)))
    (hupd : ∀ e, upd' (ix1 e) = upd (ix1 (σ e))) :
    Host.scatterAdd (F := Ideal) (φ := .f32) (scatterVec N E wf) x idx' upd'
      = Host.scatterAdd (F := Ideal) (φ := .f32) (scatterVec N E wf) x idx upd := by
  funext i
  obtain ⟨r, rfl⟩ : ∃ r, i = ix1 r := ⟨i 0, eq_ix1 i⟩
  refine (scatterAdd_vec_apply wf x idx' upd' r).trans ?_
  refine Eq.trans ?_ (scatterAdd_vec_apply wf x idx upd r).symm
  refine congrArg (fun t : EReal => x (ix1 r) + t) ?_
  refine Eq.trans ?_ (sum_filter_comp_bijective σ hσ _ _)
  refine Finset.sum_congr (Finset.filter_congr fun e _ => ?_) (fun e _ => hupd e)
  rw [hidx]

/-- If the start indices of one row gather are those of another read through σ, its row e is the other's row σ e. -/
theorem gather_rows_perm {α : Type} {N E C w : Nat} (hN : 0 < N)
    (wf : GatherDims.WF ⟨2, ![N, C]⟩ ⟨2, ![E, 1]⟩ ⟨2, ![E, C]⟩ [1] [0] [] [0] [] 1 ![1, C])
    (σ : Fin E → Fin E) (x : (⟨2, ![N, C]⟩ : Shape).Idx → α) (idx idx' : IVec ⟨2, ![E, 1]⟩ w)
    (hidx : ∀ e, idx' (ix2 e (0 : Fin 1)) = idx (ix2 (σ e) (0 : Fin 1))) (e : Fin E) (c : Fin C) :
    Host.gather (gatherRows N E C wf) x idx' (ix2 e c) = Host.gather (gatherRows N E C wf) x idx (ix2 (σ e) c) := by
  refine (gather_rows_apply hN wf x idx' e c).trans ?_
  refine Eq.trans ?_ (gather_rows_apply hN wf x idx (σ e) c).symm
  refine congrArg (fun k : Fin N => x (ix2 k c)) (Fin.ext ?_)
  show min (idx' (ix2 e (0 : Fin 1))).toInt.toNat (N - 1) = min (idx (ix2 (σ e) (0 : Fin 1))).toInt.toNat (N - 1)
  rw [hidx]

/-- THE ROW SEGMENT SUM DOES NOT DEPEND ON THE ORDER OF THE EDGES: if the scatter indices and the update rows of one
    row scatter-add are those of another read through a bijection σ of the edges, the two results are equal. -/
theorem scatterAdd_rows_perm {N E C w : Nat}
    (wf : ScatterDims.WF ⟨2, ![N, C]⟩ ⟨2, ![E, 1]⟩ ⟨2, ![E, C]⟩ [1] [0] [0] 1)
    (σ : Fin E → Fin E) (hσ : Function.Bijective σ)
    (x : (⟨2, ![N, C]⟩ : Shape).Idx → EReal) (idx idx' : IVec ⟨2, ![E, 1]⟩ w)
    (upd upd' : (⟨2, ![E, C]⟩ : Shape).Idx → EReal)
    (hidx : ∀ e, idx' (ix2 e (0 : Fin 1)) = idx (ix2 (σ e) (0 : Fin 1)))
    (hupd : ∀ e c, upd' (ix2 e c) = upd (ix2 (σ e) c)) :
    Host.scatterAdd (F := Ideal) (φ := .f32) (scatterRows N E C wf) x idx' upd'
      = Host.scatterAdd (F := Ideal) (φ := .f32) (scatterRows N E C wf) x idx upd := by
  funext i
  obtain ⟨r, c, rfl⟩ : ∃ r c, i = ix2 r c := ⟨i 0, i 1, eq_ix2 i⟩
  refine (scatterAdd_rows_apply wf x idx' upd' r c).trans ?_
  refine Eq.trans ?_ (scatterAdd_rows_apply wf x idx upd r c).symm
  refine congrArg (fun t : EReal => x (ix2 r c) + t) ?_
  refine Eq.trans ?_ (sum_filter_comp_bijective σ hσ _ _)
  refine Finset.sum_congr (Finset.filter_congr fun e _ => ?_) (fun e _ => hupd e c)
  rw [hidx]

end Cert.EdgeOrderLib

end
-- ==== Proof.RefSide.lean ====
/-
  The reference side of the expected-calibration-error certificate.

  The reference program is a straight line of 68 array operations. Part 1 reads its run back: every execution ends
  with the result buffer holding one closed term of the two arguments, refTerm conf tgt, and the arguments unchanged.
  The term has three stages:
  * idxV conf, the bin of every sample: ceil(15 x) - 1 clamped into [0, 14] when x > 0, the spare bin 15 otherwise;
  * hitV conf tgt, 1 where the thresholded prediction [x >= 1/2] equals the target, 0 elsewhere;
  * binSums idx upd, the first 15 of the 16 entries of the scatter-add of the weights upd at the bins idx onto zeros,
    taken three times: with the weights 1 (the counts), conf (the confidence mass) and hitV conf tgt (the correct
    predictions);
  followed by the closing arithmetic Cert.Ece.tail on the three vectors of 15 entries.

  Part 2 shows refTerm conf tgt = Cert.Ece.result conf tgt. Over the extended reals a scatter-add is an exact finite
  sum: entry r of the scatter-add onto zeros is the sum of the weights of the samples whose bin, read as a signed
  integer, is r. For r < 16 a 32-bit word reads signed as r exactly when it is the word r, so the sum is over the
  samples e with binOf (conf e) = r, which is Cert.Ece.binTotal.
-/
import proofs.«105154_j76132590289249_1_alg».proof.Proof.Gen.ReferenceIdeal
import proofs.«105154_j76132590289249_1_alg».proof.Proof.EceSpec
import proofs.«105154_j76132590289249_1_alg».proof.Proof.LibEdgeOrder
import Idealize.ShloMosaic.Lib.StableHlo.Run
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## Part 1: the run read back -/

section Ops
variable {F : FTy → Type} [FloatOps F]

/-- The 68 operations of the program, in order; the three called functions' operations stand where they are called,
    each over the buffers the call names (a typed reference to a literal buffer is the buffer itself). -/
abbrev ops : List (HloOp τ sig (Elt F)) :=
  [ unary main_arg1 main_v0 (sitofp .f32 : (⟨S33554432, .i32⟩ : BufTy).Contents (Elt F) → (⟨S33554432, .f32⟩ : BufTy).Contents (Elt F)),
    nullary main_cst (constant S_ .f32 0x3F000000#32),
    unary main_cst main_v1 (broadcastInDim S33554432 ![] bcast_S_S33554432 : (⟨S_, .f32⟩ : BufTy).Contents (Elt F) → (⟨S33554432, .f32⟩ : BufTy).Contents (Elt F)),
    binary main_arg0 main_v1 main_v2 (cmpf .oge : (⟨S33554432, .f32⟩ : BufTy).Contents (Elt F) → (⟨S33554432, .f32⟩ : BufTy).Contents (Elt F) → (⟨S33554432, .i1⟩ : BufTy).Contents (Elt F)),
    unary main_v2 main_v3 (uitofp .f32 : (⟨S33554432, .i1⟩ : BufTy).Contents (Elt F) → (⟨S33554432, .f32⟩ : BufTy).Contents (Elt F)),
    binary main_v3 main_v0 main_v4 (cmpf .oeq : (⟨S33554432, .f32⟩ : BufTy).Contents (Elt F) → (⟨S33554432, .f32⟩ : BufTy).Contents (Elt F) → (⟨S33554432, .i1⟩ : BufTy).Contents (Elt F)),
    unary main_v4 main_v5 (uitofp .f32 : (⟨S33554432, .i1⟩ : BufTy).Contents (Elt F) → (⟨S33554432, .f32⟩ : BufTy).Contents (Elt F)),
    nullary main_cst_0 (constant S_ .f32 0x41700000#32),
    unary main_cst_0 main_v6 (broadcastInDim S33554432 ![] bcast_S_S33554432 : (⟨S_, .f32⟩ : BufTy).Contents (Elt F) → (⟨S33554432, .f32⟩ : BufTy).Contents (Elt F)),
    binary main_arg0 main_v6 main_v7 (mulf : (⟨S33554432, .f32⟩ : BufTy).Contents (Elt F) → (⟨S33554432, .f32⟩ : BufTy).Contents (Elt F) → (⟨S33554432, .f32⟩ : BufTy).Contents (Elt F)),
    unary main_v7 main_v8 (Host.ceil : (⟨S33554432, .f32⟩ : BufTy).Contents (Elt F) → (⟨S33554432, .f32⟩ : BufTy).Contents (Elt F)),
    unary main_v8 main_v9 (fptosi 32 : (⟨S33554432, .f32⟩ : BufTy).Contents (Elt F) → (⟨S33554432, .i32⟩ : BufTy).Contents (Elt F)),
    nullary main_c (constantI S_ 32 1#32),
    unary main_c main_v10 (broadcastInDim S33554432 ![] bcast_S_S33554432 : (⟨S_, .i32⟩ : BufTy).Contents (Elt F) → (⟨S33554432, .i32⟩ : BufTy).Contents (Elt F)),
    binary main_v9 main_v10 main_v11 (subi : (⟨S33554432, .i32⟩ : BufTy).Contents (Elt F) → (⟨S33554432, .i32⟩ : BufTy).Contents (Elt F) → (⟨S33554432, .i32⟩ : BufTy).Contents (Elt F)),
    nullary main_c_1 (constantI S_ 32 0#32),
    nullary main_c_2 (constantI S_ 32 14#32),
    unary main_c_1 main_call0_v0 (id : (⟨S_, .i32⟩ : BufTy).Contents (Elt F) → (⟨S_, .i32⟩ : BufTy).Contents (Elt F)),
    unary main_call0_v0 main_call0_v1 (broadcastInDim S33554432 ![] bcast_S_S33554432 : (⟨S_, .i32⟩ : BufTy).Contents (Elt F) → (⟨S33554432, .i32⟩ : BufTy).Contents (Elt F)),
    binary main_call0_v1 main_v11 main_call0_v2 (maxsi : (⟨S33554432, .i32⟩ : BufTy).Contents (Elt F) → (⟨S33554432, .i32⟩ : BufTy).Contents (Elt F) → (⟨S33554432, .i32⟩ : BufTy).Contents (Elt F)),
    unary main_c_2 main_call0_v3 (id : (⟨S_, .i32⟩ : BufTy).Contents (Elt F) → (⟨S_, .i32⟩ : BufTy).Contents (Elt F)),
    unary main_call0_v3 main_call0_v4 (broadcastInDim S33554432 ![] bcast_S_S33554432 : (⟨S_, .i32⟩ : BufTy).Contents (Elt F) → (⟨S33554432, .i32⟩ : BufTy).Contents (Elt F)),
    binary main_call0_v4 main_call0_v2 main_v12 (minsi : (⟨S33554432, .i32⟩ : BufTy).Contents (Elt F) → (⟨S33554432, .i32⟩ : BufTy).Contents (Elt F) → (⟨S33554432, .i32⟩ : BufTy).Contents (Elt F)),
    nullary main_cst_3 (constant S_ .f32 0x00000000#32),
    unary main_cst_3 main_v13 (broadcastInDim S33554432 ![] bcast_S_S33554432 : (⟨S_, .f32⟩ : BufTy).Contents (Elt F) → (⟨S33554432, .f32⟩ : BufTy).Contents (Elt F)),
    binary main_arg0 main_v13 main_v14 (cmpf .ogt : (⟨S33554432, .f32⟩ : BufTy).Contents (Elt F) → (⟨S33554432, .f32⟩ : BufTy).Contents (Elt F) → (⟨S33554432, .i1⟩ : BufTy).Contents (Elt F)),
    nullary main_c_4 (constantI S_ 32 15#32),
    unary main_c_4 main_call1_v0 (id : (⟨S_, .i32⟩ : BufTy).Contents (Elt F) → (⟨S_, .i32⟩ : BufTy).Contents (Elt F)),
    unary main_call1_v0 main_call1_v1 (broadcastInDim S33554432 ![] bcast_S_S33554432 : (⟨S_, .i32⟩ : BufTy).Contents (Elt F) → (⟨S33554432, .i32⟩ : BufTy).Contents (Elt F)),
    ternary main_v14 main_v12 main_call1_v1 main_v15 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    nullary main_cst_5 (constant S_ .f32 0x3F800000#32),
    unary main_cst_5 main_v16 (broadcastInDim S33554432 ![] bcast_S_S33554432 : (⟨S_, .f32⟩ : BufTy).Contents (Elt F) → (⟨S33554432, .f32⟩ : BufTy).Contents (Elt F)),
    nullary main_cst_6 (constant S_ .f32 0x00000000#32),
    unary main_cst_6 main_v17 (broadcastInDim S16 ![] bcast_S_S16 : (⟨S_, .f32⟩ : BufTy).Contents (Elt F) → (⟨S16, .f32⟩ : BufTy).Contents (Elt F)),
    unary main_v15 main_v18 (broadcastInDim S33554432x1 ![0] bcast_S33554432_S33554432x1_0 : (⟨S33554432, .i32⟩ : BufTy).Contents (Elt F) → (⟨S33554432x1, .i32⟩ : BufTy).Contents (Elt F)),
    ternary main_v17 main_v18 main_v16 main_v19 ((fun x i u => Host.scatterAdd scatter_S16_S33554432x1_S33554432_n_0_0_1 x i u) : (⟨S16, .f32⟩ : BufTy).Contents (Elt F) → (⟨S33554432x1, .i32⟩ : BufTy).Contents (Elt F) → (⟨S33554432, .f32⟩ : BufTy).Contents (Elt F) → (⟨S16, .f32⟩ : BufTy).Contents (Elt F)),
    unary main_v19 main_v20 ((extractStridedSlice S15 ![0] · slices_S16_S15_0) : (⟨S16, .f32⟩ : BufTy).Contents (Elt F) → (⟨S15, .f32⟩ : BufTy).Contents (Elt F)),
    nullary main_cst_7 (constant S_ .f32 0x00000000#32),
    unary main_cst_7 main_v21 (broadcastInDim S16 ![] bcast_S_S16 : (⟨S_, .f32⟩ : BufTy).Contents (Elt F) → (⟨S16, .f32⟩ : BufTy).Contents (Elt F)),
    unary main_v15 main_v22 (broadcastInDim S33554432x1 ![0] bcast_S33554432_S33554432x1_0 : (⟨S33554432, .i32⟩ : BufTy).Contents (Elt F) → (⟨S33554432x1, .i32⟩ : BufTy).Contents (Elt F)),
    ternary main_v21 main_v22 main_arg0 main_v23 ((fun x i u => Host.scatterAdd scatter_S16_S33554432x1_S33554432_n_0_0_1 x i u) : (⟨S16, .f32⟩ : BufTy).Contents (Elt F) → (⟨S33554432x1, .i32⟩ : BufTy).Contents (Elt F) → (⟨S33554432, .f32⟩ : BufTy).Contents (Elt F) → (⟨S16, .f32⟩ : BufTy).Contents (Elt F)),
    unary main_v23 main_v24 ((extractStridedSlice S15 ![0] · slices_S16_S15_0) : (⟨S16, .f32⟩ : BufTy).Contents (Elt F) → (⟨S15, .f32⟩ : BufTy).Contents (Elt F)),
    nullary main_cst_8 (constant S_ .f32 0x00000000#32),
    unary main_cst_8 main_v25 (broadcastInDim S16 ![] bcast_S_S16 : (⟨S_, .f32⟩ : BufTy).Contents (Elt F) → (⟨S16, .f32⟩ : BufTy).Contents (Elt F)),
    unary main_v15 main_v26 (broadcastInDim S33554432x1 ![0] bcast_S33554432_S33554432x1_0 : (⟨S33554432, .i32⟩ : BufTy).Contents (Elt F) → (⟨S33554432x1, .i32⟩ : BufTy).Contents (Elt F)),
    ternary main_v25 main_v26 main_v5 main_v27 ((fun x i u => Host.scatterAdd scatter_S16_S33554432x1_S33554432_n_0_0_1 x i u) : (⟨S16, .f32⟩ : BufTy).Contents (Elt F) → (⟨S33554432x1, .i32⟩ : BufTy).Contents (Elt F) → (⟨S33554432, .f32⟩ : BufTy).Contents (Elt F) → (⟨S16, .f32⟩ : BufTy).Contents (Elt F)),
    unary main_v27 main_v28 ((extractStridedSlice S15 ![0] · slices_S16_S15_0) : (⟨S16, .f32⟩ : BufTy).Contents (Elt F) → (⟨S15, .f32⟩ : BufTy).Contents (Elt F)),
    nullary main_cst_9 (constant S_ .f32 0x3F800000#32),
    unary main_cst_9 main_v29 (broadcastInDim S15 ![] bcast_S_S15 : (⟨S_, .f32⟩ : BufTy).Contents (Elt F) → (⟨S15, .f32⟩ : BufTy).Contents (Elt F)),
    binary main_v20 main_v29 main_v30 (maximumf : (⟨S15, .f32⟩ : BufTy).Contents (Elt F) → (⟨S15, .f32⟩ : BufTy).Contents (Elt F) → (⟨S15, .f32⟩ : BufTy).Contents (Elt F)),
    binary main_v24 main_v30 main_v31 (Host.divf : (⟨S15, .f32⟩ : BufTy).Contents (Elt F) → (⟨S15, .f32⟩ : BufTy).Contents (Elt F) → (⟨S15, .f32⟩ : BufTy).Contents (Elt F)),
    binary main_v28 main_v30 main_v32 (Host.divf : (⟨S15, .f32⟩ : BufTy).Contents (Elt F) → (⟨S15, .f32⟩ : BufTy).Contents (Elt F) → (⟨S15, .f32⟩ : BufTy).Contents (Elt F)),
    binary main_v31 main_v32 main_v33 (subf : (⟨S15, .f32⟩ : BufTy).Contents (Elt F) → (⟨S15, .f32⟩ : BufTy).Contents (Elt F) → (⟨S15, .f32⟩ : BufTy).Contents (Elt F)),
    unary main_v33 main_v34 (Host.absf : (⟨S15, .f32⟩ : BufTy).Contents (Elt F) → (⟨S15, .f32⟩ : BufTy).Contents (Elt F)),
    nullary main_cst_10 (constant S_ .f32 0x4C000000#32),
    unary main_cst_10 main_v35 (broadcastInDim S15 ![] bcast_S_S15 : (⟨S_, .f32⟩ : BufTy).Contents (Elt F) → (⟨S15, .f32⟩ : BufTy).Contents (Elt F)),
    binary main_v20 main_v35 main_v36 (Host.divf : (⟨S15, .f32⟩ : BufTy).Contents (Elt F) → (⟨S15, .f32⟩ : BufTy).Contents (Elt F) → (⟨S15, .f32⟩ : BufTy).Contents (Elt F)),
    nullary main_cst_11 (constant S_ .f32 0x00000000#32),
    unary main_cst_11 main_v37 (broadcastInDim S15 ![] bcast_S_S15 : (⟨S_, .f32⟩ : BufTy).Contents (Elt F) → (⟨S15, .f32⟩ : BufTy).Contents (Elt F)),
    binary main_v20 main_v37 main_v38 (cmpf .ogt : (⟨S15, .f32⟩ : BufTy).Contents (Elt F) → (⟨S15, .f32⟩ : BufTy).Contents (Elt F) → (⟨S15, .i1⟩ : BufTy).Contents (Elt F)),
    binary main_v34 main_v36 main_v39 (mulf : (⟨S15, .f32⟩ : BufTy).Contents (Elt F) → (⟨S15, .f32⟩ : BufTy).Contents (Elt F) → (⟨S15, .f32⟩ : BufTy).Contents (Elt F)),
    nullary main_cst_12 (constant S_ .f32 0x00000000#32),
    unary main_cst_12 main_call2_v0 (id : (⟨S_, .f32⟩ : BufTy).Contents (Elt F) → (⟨S_, .f32⟩ : BufTy).Contents (Elt F)),
    unary main_call2_v0 main_call2_v1 (broadcastInDim S15 ![] bcast_S_S15 : (⟨S_, .f32⟩ : BufTy).Contents (Elt F) → (⟨S15, .f32⟩ : BufTy).Contents (Elt F)),
    ternary main_v38 main_v39 main_call2_v1 main_v40 (select : (⟨S15, .i1⟩ : BufTy).Contents (Elt F) → (⟨S15, .f32⟩ : BufTy).Contents (Elt F) → (⟨S15, .f32⟩ : BufTy).Contents (Elt F) → (⟨S15, .f32⟩ : BufTy).Contents (Elt F)),
    nullary main_cst_13 (constant S_ .f32 0x00000000#32),
    binary main_v40 main_cst_13 main_v41 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)),
    reshape main_v41 main_v42 rfl shapeCasts_S_S1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., unary_bufs_sub .., ternary_bufs_sub .., unary_bufs_sub .., nullary_bufs_sub .., unary_bufs_sub .., unary_bufs_sub .., ternary_bufs_sub .., unary_bufs_sub .., nullary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., reshape_bufs_sub ..⟩

end Ops

/-! ### The result term, by stages -/

/-- The bin of every sample: ceil(15 x) - 1 clamped into [0, 14] where x > 0, the spare bin 15 elsewhere. -/
def idxV (conf : FVec Ideal S33554432 .f32) : IVec S33554432 32 :=
  select (cmpf .ogt conf (broadcastInDim S33554432 ![] bcast_S_S33554432 (constant (F := Ideal) S_ .f32 0x00000000#32)))
    (minsi (broadcastInDim S33554432 ![] bcast_S_S33554432 (id (constantI S_ 32 14#32)))
      (maxsi (broadcastInDim S33554432 ![] bcast_S_S33554432 (id (constantI S_ 32 0#32)))
        (subi (fptosi 32 (Host.ceil (mulf conf
            (broadcastInDim S33554432 ![] bcast_S_S33554432 (constant (F := Ideal) S_ .f32 0x41700000#32)))))
          (broadcastInDim S33554432 ![] bcast_S_S33554432 (constantI S_ 32 1#32)))))
    (broadcastInDim S33554432 ![] bcast_S_S33554432 (id (constantI S_ 32 15#32)))

/-- 1 where the thresholded prediction [x >= 1/2] equals the target read as a number, 0 elsewhere. -/
def hitV (conf : FVec Ideal S33554432 .f32) (tgt : IVec S33554432 32) : FVec Ideal S33554432 .f32 :=
  uitofp (F := Ideal) .f32 (cmpf .oeq
    (uitofp (F := Ideal) .f32 (cmpf .oge conf
      (broadcastInDim S33554432 ![] bcast_S_S33554432 (constant (F := Ideal) S_ .f32 0x3F000000#32))))
    (sitofp (F := Ideal) .f32 tgt))

/-- The weight 1 for every sample. -/
def onesV : FVec Ideal S33554432 .f32 :=
  broadcastInDim S33554432 ![] bcast_S_S33554432 (constant (F := Ideal) S_ .f32 0x3F800000#32)

/-- The first 15 of the 16 entries of the scatter-add of the weights upd at the bins idx onto zeros. -/
def binSums (idx : IVec S33554432 32) (upd : FVec Ideal S33554432 .f32) : FVec Ideal S15 .f32 :=
  extractStridedSlice S15 ![0]
    (Host.scatterAdd (F := Ideal) scatter_S16_S33554432x1_S33554432_n_0_0_1
      (broadcastInDim S16 ![] bcast_S_S16 (constant (F := Ideal) S_ .f32 0x00000000#32))
      (broadcastInDim S33554432x1 ![0] bcast_S33554432_S33554432x1_0 idx) upd) slices_S16_S15_0

/-- The program's result as one term of its two arguments: the closing arithmetic on the counts, the confidence
    mass and the correct predictions per bin. -/
def refTerm (conf : FVec Ideal S33554432 .f32) (tgt : IVec S33554432 32) : FVec Ideal S1 .f32 :=
  Cert.Ece.tail bcast_S_S15 reducesTo_S15_S_d0 h_S_ shapeCasts_S_S1
    (binSums (idxV conf) onesV)
    (binSums (idxV conf) conf)
    (binSums (idxV conf) (hitV conf tgt))

attribute [local irreducible] Host.scatterAdd Host.reduceAdd in
set_option maxRecDepth 8192 in
set_option maxHeartbeats 27200000 in
/-- Reading the 68 results back, outermost first, the result buffer holds the result term of the two arguments. -/
theorem out_eq (V : Valuation τ sig (Elt Ideal)) :
    after (ops (F := Ideal)) V (Proc.devRef .tc main_v42)
      = refTerm (V (Proc.devRef .tc main_arg0)) (V (Proc.devRef .tc main_arg1)) := by
  after_results_simp
  unfold refTerm Cert.Ece.tail binSums idxV hitV onesV
  rfl

set_option maxRecDepth 8192 in
set_option maxHeartbeats 27200000 in
/-- No operation writes the first argument. -/
theorem arg0_eq (V : Valuation τ sig (Elt Ideal)) :
    after (ops (F := Ideal)) V (Proc.devRef .tc main_arg0) = V (Proc.devRef .tc main_arg0) := by
  after_results_simp

set_option maxRecDepth 8192 in
set_option maxHeartbeats 27200000 in
/-- No operation writes the second argument. -/
theorem arg1_eq (V : Valuation τ sig (Elt Ideal)) :
    after (ops (F := Ideal)) V (Proc.devRef .tc main_arg1) = V (Proc.devRef .tc main_arg1) := by
  after_results_simp

/-! ## Part 2: the result term is the expected calibration error -/

/-- For r < 16, a 32-bit word reads signed as r exactly when it is the word r. -/
theorem toInt_eq_iff (k : BitVec 32) {r : Nat} (hr : r < 16) :
    k.toInt = (r : Int) ↔ k = BitVec.ofNat 32 r := by
  have hr' : (BitVec.ofNat 32 r).toInt = (r : Int) := Cert.EdgeOrderLib.toInt_ofNat32 (by omega)
  constructor
  · intro h
    exact BitVec.eq_of_toInt_eq (h.trans hr'.symm)
  · intro h
    rw [h]
    exact hr'

/-- The bin vector at sample e is the bin of the sample's confidence. -/
theorem idxV_apply (conf : FVec Ideal S33554432 .f32) (e : Fin 33554432) :
    idxV conf (ix1 e) = Cert.Ece.binOf (conf (ix1 e)) := rfl

/-- The hit vector at sample e is the hit of the sample. -/
theorem hitV_apply (conf : FVec Ideal S33554432 .f32) (tgt : IVec S33554432 32) (e : Fin 33554432) :
    hitV conf tgt (ix1 e) = Cert.Ece.hitOf (conf (ix1 e)) (tgt (ix1 e)) := rfl

/-- The weight vector of ones at sample e is 1. -/
theorem onesV_apply (e : Fin 33554432) : onesV (ix1 e) = (1 : EReal) :=
  Ideal.ofBits_one_f32

/-- Entry b of the first 15 of 16 entries is entry b of the 16. -/
theorem slice15_apply (X : FVec Ideal S16 .f32) (b : Fin 15) (hb : b.val < 16) :
    extractStridedSlice S15 ![0] X slices_S16_S15_0 (ix1 b) = X (ix1 (⟨b.val, hb⟩ : Fin 16)) := by
  refine extractStridedSlice_apply ![0] _ slices_S16_S15_0 (ix1 b) (ix1 (⟨b.val, hb⟩ : Fin 16)) ?_
  intro a
  match a with
  | ⟨0, _⟩ => show b.val = 0 + b.val; omega

/-- The vector of 16 zeros at any entry is 0. -/
theorem zeros16_apply (r : Fin 16) :
    (broadcastInDim S16 ![] bcast_S_S16 (constant (F := Ideal) S_ .f32 0x00000000#32) : FVec Ideal S16 .f32) (ix1 r)
      = (0 : EReal) :=
  Ideal.ofBits_zero_f32

/-- The scatter-add's dimension numbers are those of the rank-1 scatter-add of single elements. -/
theorem scatterRec_eq :
    (scatter_S16_S33554432x1_S33554432_n_0_0_1 : ScatterDims S16 S33554432x1 S33554432)
      = Cert.EdgeOrderLib.scatterVec 16 33554432 scatter_S16_S33554432x1_S33554432_n_0_0_1_wf := rfl

attribute [local irreducible] Host.scatterAdd in
/-- ONE SCATTER-ADD, ENTRY BY ENTRY: entry b of the first 15 entries of the scatter-add of the weights upd at the
    bins idx onto zeros is the total of the weights over the samples whose bin is the word b. -/
theorem binSums_apply (idx : IVec S33554432 32) (upd : FVec Ideal S33554432 .f32) (b : Fin 15) :
    binSums idx upd (ix1 b)
      = ∑ e : Fin 33554432, if idx (ix1 e) = BitVec.ofNat 32 b.val then upd (ix1 e) else 0 := by
  have hb : b.val < 16 := by have := b.isLt; omega
  unfold binSums
  rw [scatterRec_eq]
  -- the slice reads entry b of the 16
  refine (slice15_apply _ b hb).trans ?_
  -- entry b of the scatter-add is the zero entry plus the sum over the samples whose bin reads b
  refine (Cert.EdgeOrderLib.scatterAdd_vec_apply (N := 16) (E := 33554432) (w := 32)
    scatter_S16_S33554432x1_S33554432_n_0_0_1_wf
    (broadcastInDim S16 ![] bcast_S_S16 (constant (F := Ideal) S_ .f32 0x00000000#32))
    (broadcastInDim S33554432x1 ![0] bcast_S33554432_S33554432x1_0 idx) upd ⟨b.val, hb⟩).trans ?_
  refine (congrArg (fun t : EReal => t + _) (zeros16_apply ⟨b.val, hb⟩)).trans ?_
  refine (zero_add _).trans ?_
  refine (Finset.sum_filter _ _).trans ?_
  refine Finset.sum_congr rfl fun e _ => ?_
  refine if_congr ?_ rfl rfl
  have hc : broadcastInDim S33554432x1 ![0] bcast_S33554432_S33554432x1_0 idx (ix2 e (0 : Fin 1)) = idx (ix1 e) :=
    Cert.EdgeOrderLib.bcast_col_apply bcast_S33554432_S33554432x1_0 idx e
  show (broadcastInDim S33554432x1 ![0] bcast_S33554432_S33554432x1_0 idx (ix2 e (0 : Fin 1))).toInt
      = (b.val : Int) ↔ _
  rw [hc]
  exact toInt_eq_iff _ hb

/-- ONE STATISTIC: with the bins of the confidences, the scatter-add of weights that are w sample by sample is,
    bin by bin, the total of w over the samples of the bin. -/
theorem binSums_eq (conf upd : FVec Ideal S33554432 .f32) (w : Fin Cert.Ece.NE → EReal)
    (hw : ∀ e : Fin 33554432, upd (ix1 e) = w e) :
    binSums (idxV conf) upd = Cert.Ece.stat conf w := by
  funext j
  obtain ⟨b, rfl⟩ : ∃ b, j = ix1 b := ⟨j 0, eq_ix1 j⟩
  refine (binSums_apply (idxV conf) upd b).trans ?_
  show _ = ∑ e : Fin Cert.Ece.NE,
    if Cert.Ece.binOf (conf (ix1 e)) = BitVec.ofNat 32 b.val then w e else 0
  refine Finset.sum_congr rfl fun e _ => ?_
  rw [idxV_apply conf e, hw e]

/-- THE RESULT TERM IS THE EXPECTED CALIBRATION ERROR of the samples. -/
theorem refTerm_eq (conf : FVec Ideal S33554432 .f32) (tgt : IVec S33554432 32) :
    refTerm conf tgt
      = Cert.Ece.result bcast_S_S15 reducesTo_S15_S_d0 h_S_ shapeCasts_S_S1 conf tgt := by
  unfold refTerm Cert.Ece.result
  rw [binSums_eq conf onesV (fun _ => 1) onesV_apply,
    binSums_eq conf conf (fun e => conf (ix1 e)) (fun _ => rfl),
    binSums_eq conf (hitV conf tgt) (fun e => Cert.Ece.hitOf (conf (ix1 e)) (tgt (ix1 e))) (hitV_apply conf tgt)]

/-! ## The run -/

/-- On every device, from any memory with zero counters: every weakly fair execution of the program terminates with
    the result buffer holding the expected calibration error of the two arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
          = Cert.Ece.result Gen.bcast_S_S15 Gen.reducesTo_S15_S_d0 Gen.h_S_ Gen.shapeCasts_S_S1
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c main_v42).trans (out_eq (launchContents m c))).trans
          (refTerm_eq (m ((c.tc : Thread nD τ).loc main_arg0)) (m ((c.tc : Thread nD τ).loc main_arg1))),
        (h c main_arg0).trans (arg0_eq (launchContents m c)),
        (h c main_arg1).trans (arg1_eq (launchContents m c))⟩)
    (run_seq scopedRefs_eq scopedSems_eq defs main (fun _ => ops) main_eq (fun _ => ops_sub) m ρ)

end Cert.ReferenceIdeal.RefValue

end
-- ==== Proof.lean ====
/-
  The certificate of a binned expected-calibration-error kernel against its segment-sum reference.

  Both programs take N = 2^25 confidences x and integer targets y. Each sample falls in a bin: ceil(15 x) - 1 clamped
  into [0, 14] when x > 0, a spare sixteenth bin otherwise. Per bin b < 15 three statistics are formed over the samples
  of the bin: their number, their total confidence, and the number of them whose thresholded prediction [x >= 1/2]
  equals the target. From the three [15] vectors both programs compute, with the same constants,
  the sum over the bins with a positive count of |mass / d - correct / d| * (count / N), d = max(count, 1).

  The kernel streams the samples in 64 blocks of 4096 x 128: per block and bin it masks the block by [bin = b], sums
  mask, mask * x and mask * hit along the lanes and down the rows, lays the fifteen totals of each kind into one row
  of an [8, 128] accumulator block (zeroed at the first block), and adds. The reference scatter-adds 1, x and hit into
  sixteen segments by the bin word and drops the spare segment.

  Over the extended reals a finite sum does not depend on its order or grouping, 0 * x = 0 and 1 * x = x for every x,
  and 0 + x = x: so the kernel's total over blocks, rows and lanes of (if bin = b then w else 0) is the reference's
  sum of w over the samples of bin b, for every input (finiteness of the inputs is not used). The closing arithmetic
  is one function applied to equal statistics.

  frame (all three programs): the two kernels' frames are the generated class-R frames; the reference's is its run
  with the result dropped. preserves: the idealization rewrote nothing. algebraic: both runs end at
  Cert.Ece.result of the arguments (KernelRun.lean for the kernel, RefSide.lean for the reference).
-/
import proofs.«105154_j76132590289249_1_alg».proof.Defs
import proofs.«105154_j76132590289249_1_alg».proof.Proof.Gen.Kernel
import proofs.«105154_j76132590289249_1_alg».proof.Proof.Gen.Kernel.Frame
import proofs.«105154_j76132590289249_1_alg».proof.Proof.Gen.KernelIdeal
import proofs.«105154_j76132590289249_1_alg».proof.Proof.Gen.KernelIdeal.Frame
import proofs.«105154_j76132590289249_1_alg».proof.Proof.Gen.ReferenceIdeal
import proofs.«105154_j76132590289249_1_alg».proof.Proof.Gen.Pre_finite_inputs
import proofs.«105154_j76132590289249_1_alg».proof.Proof.KernelRun
import proofs.«105154_j76132590289249_1_alg».proof.Proof.RefSide
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- At the ideal instance both programs end at the expected calibration error of arguments that agree. -/
theorem algebraic : Cert.algebraic_KernelIdeal_ReferenceIdeal := by
  intro m ρ m' ρ' _ hagree
  refine ⟨fun c => Cert.Ece.result Cert.KernelIdeal.Gen.bcast_S_S15 Cert.KernelIdeal.Gen.reducesTo_S15_S_d0 Cert.KernelIdeal.Gen.h_S_ Cert.KernelIdeal.Gen.shapeCasts_S_S1
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.EceBody.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
